-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S128 .f32) (main_arg16 : FVec F S128 .f32) (main_arg17 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg12 : FVec F S128 .f32) (main_arg13 : FVec F S128 .f32) (main_arg14 : FVec F S128 .f32) (main_arg15 : FVec F S128 .f32) (main_arg16 : FVec F S128 .f32) (main_arg17 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_v63 main_v67

def fn_part2 {F : FTy → Type} [FloatOps F] (main_arg8 : FVec F S1 .f32) (main_arg9 : FVec F S256x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S128x128 .f32) (main_arg6 : FVec F S128 .f32) (main_arg7 : FVec F S128x1 .f32) (main_arg8 : FVec F S1 .f32) (main_arg9 : FVec F S256x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg7
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x256 .f32) (main_arg1 : IVec S2x1600000 32) (main_arg2 : FVec F S1600000 .f32) (main_arg3 : FVec F S256x128 .f32) (main_arg4 : FVec F S128 .f32) (main_arg5 : FVec F S128x128 .f32) (main_arg6 : FVec F S128 .f32) (main_arg7 : FVec F S128x1 .f32) (main_arg8 : FVec F S1 .f32) (main_arg9 : FVec F S256x128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S5000x256 : Shape := ⟨2, ![5000, 256]⟩
abbrev S5000x128 : Shape := ⟨2, ![5000, 128]⟩
abbrev S1700000x128 : Shape := ⟨2, ![1700000, 128]⟩
abbrev S1x128 : Shape := ⟨2, ![1, 128]⟩
abbrev S100000x1 : Shape := ⟨2, ![100000, 1]⟩
abbrev S5000x1 : Shape := ⟨2, ![5000, 1]⟩
abbrev S1x1 : Shape := ⟨2, ![1, 1]⟩

abbrev nBuf : Space → Nat
  | .hbm => 120
  | .vmem => 40
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S256x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S100000, .i32⟩
  | .hbm, ⟨19, _⟩ => ⟨S1x1600000, .i32⟩
  | .hbm, ⟨20, _⟩ => ⟨S1600000, .i32⟩
  | .hbm, ⟨21, _⟩ => ⟨S1700000, .i32⟩
  | .hbm, ⟨22, _⟩ => ⟨S1x1600000, .i32⟩
  | .hbm, ⟨23, _⟩ => ⟨S1600000, .i32⟩
  | .hbm, ⟨24, _⟩ => ⟨S1700000, .i32⟩
  | .hbm, ⟨25, _⟩ => ⟨S_, .f32⟩
  | .hbm, ⟨26, _⟩ => ⟨S100000, .f32⟩
  | .hbm, ⟨27, _⟩ => ⟨S1700000, .f32⟩
  | .hbm, ⟨28, _⟩ => ⟨S_, .f32⟩
  | .hbm, ⟨29, _⟩ => ⟨S100000, .f32⟩
  | .hbm, ⟨30, _⟩ => ⟨S1700000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .i1⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000, .f32⟩
  | .hbm, ⟨39, _⟩ => ⟨S_, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000, .f32⟩
  | .hbm, ⟨52, _⟩ => ⟨S1700000, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000, .f32⟩
  | .hbm, ⟨62, _⟩ => ⟨S1700000, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x128, .f32⟩
  | .hbm, ⟨74, _⟩ => ⟨S1700000x1, .f32⟩
  | .hbm, ⟨75, _⟩ => ⟨S1700000x128, .f32⟩
  | .hbm, ⟨76, _⟩ => ⟨S1700000x128, .f32⟩
  | .hbm, ⟨77, _⟩ => ⟨S_, .f32⟩
  | .hbm, ⟨78, _⟩ => ⟨S100000x128, .f32⟩
  | .hbm, ⟨79, _⟩ => ⟨S1700000x1, .i32⟩
  | .hbm, ⟨80, _⟩ => ⟨S100000x128, .f32⟩
  | .hbm, ⟨81, _⟩ => ⟨S100000x128, .f32⟩
  | .hbm, ⟨82, _⟩ => ⟨S100000x128, .f32⟩
  | .hbm, ⟨83, _⟩ => ⟨S_, .i32⟩
  | .hbm, ⟨84, _⟩ => ⟨S1700000, .i32⟩
  | .hbm, ⟨85, _⟩ => ⟨S1700000, .i1⟩
  | .hbm, ⟨86, _⟩ => ⟨S_, .i32⟩
  | .hbm, ⟨87, _⟩ => ⟨S1700000, .i32⟩
  | .hbm, ⟨88, _⟩ => ⟨S1700000, .i32⟩
  | .hbm, ⟨89, _⟩ => ⟨S1700000, .i32⟩
  | .hbm, ⟨90, _⟩ => ⟨S1700000x1, .i32⟩
  | .hbm, ⟨91, _⟩ => ⟨S1700000x128, .f32⟩
  | .hbm, ⟨92, _⟩ => ⟨S1700000x1, .f32⟩
  | .hbm, ⟨93, _⟩ => ⟨S1700000x128, .f32⟩
  | .hbm, ⟨94, _⟩ => ⟨S1700000x128, .f32⟩
  | .hbm, ⟨95, _⟩ => ⟨S_, .f32⟩
  | .hbm, ⟨96, _⟩ => ⟨S100000x128, .f32⟩
  | .hbm, ⟨97, _⟩ => ⟨S1700000x1, .i32⟩
  | .hbm, ⟨98, _⟩ => ⟨S100000x128, .f32⟩
  | .hbm, ⟨99, _⟩ => ⟨S100000x128, .f32⟩
  | .hbm, ⟨100, _⟩ => ⟨S100000x1, .f32⟩
  | .hbm, ⟨101, _⟩ => ⟨S_, .i32⟩
  | .hbm, ⟨102, _⟩ => ⟨S1700000, .i32⟩
  | .hbm, ⟨103, _⟩ => ⟨S1700000, .i1⟩
  | .hbm, ⟨104, _⟩ => ⟨S_, .i32⟩
  | .hbm, ⟨105, _⟩ => ⟨S1700000, .i32⟩
  | .hbm, ⟨106, _⟩ => ⟨S1700000, .i32⟩
  | .hbm, ⟨107, _⟩ => ⟨S1700000, .i32⟩
  | .hbm, ⟨108, _⟩ => ⟨S1700000x1, .i32⟩
  | .hbm, ⟨109, _⟩ => ⟨S1700000x1, .f32⟩
  | .hbm, ⟨110, _⟩ => ⟨S1700000x1, .f32⟩
  | .hbm, ⟨111, _⟩ => ⟨S1700000x1, .f32⟩
  | .hbm, ⟨112, _⟩ => ⟨S_, .f32⟩
  | .hbm, ⟨113, _⟩ => ⟨S100000x1, .f32⟩
  | .hbm, ⟨114, _⟩ => ⟨S1700000x1, .i32⟩
  | .hbm, ⟨115, _⟩ => ⟨S100000x1, .f32⟩
  | .hbm, ⟨116, _⟩ => ⟨S1x1, .f32⟩
  | .hbm, ⟨117, _⟩ => ⟨S100000x1, .f32⟩
  | .hbm, ⟨118, _⟩ => ⟨S100000x1, .f32⟩
  | .hbm, ⟨119, _⟩ => ⟨S100000, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x256, .f32⟩
  | .local _ .vmem, ⟨6, _⟩ => ⟨S5000x256, .f32⟩
  | .local _ .vmem, ⟨7, _⟩ => ⟨S256x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S128x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128, .f32⟩
  | .local _ .vmem, ⟨27, _⟩ => ⟨S5000x128, .f32⟩
  | .local _ .vmem, ⟨28, _⟩ => ⟨S5000x128, .f32⟩
  | .local _ .vmem, ⟨29, _⟩ => ⟨S128, .f32⟩
  | .local _ .vmem, ⟨30, _⟩ => ⟨S128, .f32⟩
  | .local _ .vmem, ⟨31, _⟩ => ⟨S128, .f32⟩
  | .local _ .vmem, ⟨32, _⟩ => ⟨S128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S128x1, .f32⟩
  | .local _ .vmem, ⟨38, _⟩ => ⟨S5000x1, .f32⟩
  | .local _ .vmem, ⟨39, _⟩ => ⟨S5000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v17 : Ref sig .tc := ⟨.hbm, 42, rfl⟩
abbrev main_c : Ref sig .tc := ⟨.hbm, 43, rfl⟩
abbrev main_v18 : Ref sig .tc := ⟨.hbm, 44, rfl⟩
abbrev main_v19 : Ref sig .tc := ⟨.hbm, 45, rfl⟩
abbrev main_c_4 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_5 : Ref sig .tc := ⟨.hbm, 53, rfl⟩
abbrev main_v26 : Ref sig .tc := ⟨.hbm, 54, rfl⟩
abbrev main_v27 : Ref sig .tc := ⟨.hbm, 55, rfl⟩
abbrev main_c_6 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_7 : Ref sig .tc := ⟨.hbm, 65, rfl⟩
abbrev main_v36 : Ref sig .tc := ⟨.hbm, 66, rfl⟩
abbrev main_v37 : Ref sig .tc := ⟨.hbm, 67, rfl⟩
abbrev main_c_8 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_9 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_10 : Ref sig .tc := ⟨.hbm, 83, rfl⟩
abbrev main_v51 : Ref sig .tc := ⟨.hbm, 84, rfl⟩
abbrev main_v52 : Ref sig .tc := ⟨.hbm, 85, rfl⟩
abbrev main_c_11 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_12 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_c_13 : Ref sig .tc := ⟨.hbm, 101, rfl⟩
abbrev main_v66 : Ref sig .tc := ⟨.hbm, 102, rfl⟩
abbrev main_v67 : Ref sig .tc := ⟨.hbm, 103, rfl⟩
abbrev main_c_14 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_15 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg5_0 : Ref sig .tc := ⟨.vmem, 31, rfl⟩
abbrev cc4_stg6_0 : Ref sig .tc := ⟨.vmem, 32, rfl⟩
abbrev cc4_stg7_0 : Ref sig .tc := ⟨.vmem, 33, rfl⟩
abbrev cc4_stg7_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc4_sem3_0 : DmaSem sig := 29
abbrev cc4_sem4_0 : DmaSem sig := 30
abbrev cc4_sem5_0 : DmaSem sig := 31
abbrev cc4_sem6_0 : DmaSem sig := 32
abbrev cc4_sem7_0 : DmaSem sig := 33
abbrev cc4_sem7_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem2_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x1 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S5000x1_S5000x1_0_0 : ∀ a, (![0, 0] : Fin 2 → Nat) a + S5000x1.size a ≤ S5000x1.size a
  h_S5000x1 : 0 < S5000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S100000x256.size a
  hwx1_0 : ∀ i : grid1.Coords, EltTy.bits .f32 = 32 ∨ (Rect.block (s := S100000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128.size a ≤ S128.size a
  hwx4_1 : ∀ i : grid4.Coords, EltTy.bits .f32 = 32 ∨ (Rect.block (s := S128) S128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128.size a ≤ S128.size a
  hwx4_5 : ∀ i : grid4.Coords, EltTy.bits .f32 = 32 ∨ (Rect.block (s := S128) S128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128.size a ≤ S128.size a
  hwx4_6 : ∀ i : grid4.Coords, EltTy.bits .f32 = 32 ∨ (Rect.block (s := S128) S128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S100000x128.size a
  hwx4_7 : ∀ i : grid4.Coords, EltTy.bits .f32 = 32 ∨ (Rect.block (s := S100000x128) S5000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x1.size a ≤ S128x1.size a
  hwx5_1 : ∀ i : grid5.Coords, EltTy.bits .f32 = 32 ∨ (Rect.block (s := S128x1) S128x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v49) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v49) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v50) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v34) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg14) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg15) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg16) S128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg17) S128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v64) S5000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v64) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128x1.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v65) S5000x1.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 163
  | .vmem => 0
  | .smem => 0
  | _ => 0

abbrev hbmTy0_0 (i : Nat) : BufTy := match i % 128 with
  | 0 => ⟨S100000x256, .f32⟩
  | 1 => ⟨S2x1600000, .i32⟩
  | 2 => ⟨S1600000, .f32⟩
  | 3 => ⟨S256x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S256x128, .f32⟩
  | 10 => ⟨S128, .f32⟩
  | 11 => ⟨S128, .f32⟩
  | 12 => ⟨S128, .f32⟩
  | 13 => ⟨S128, .f32⟩
  | 14 => ⟨S128, .f32⟩
  | 15 => ⟨S128, .f32⟩
  | 16 => ⟨S128, .f32⟩
  | 17 => ⟨S128, .f32⟩
  | 18 => ⟨S100000, .i32⟩
  | 19 => ⟨S1x1600000, .i32⟩
  | 20 => ⟨S1600000, .i32⟩
  | 21 => ⟨S1700000, .i32⟩
  | 22 => ⟨S1x1600000, .i32⟩
  | 23 => ⟨S1600000, .i32⟩
  | 24 => ⟨S1700000, .i32⟩
  | 25 => ⟨S_, .f32⟩
  | 26 => ⟨S100000, .f32⟩
  | 27 => ⟨S1700000, .f32⟩
  | 28 => ⟨S_, .f32⟩
  | 29 => ⟨S100000, .f32⟩
  | 30 => ⟨S1700000x1, .i32⟩
  | 31 => ⟨S100000, .f32⟩
  | 32 => ⟨S_, .f32⟩
  | 33 => ⟨S100000, .f32⟩
  | 34 => ⟨S100000, .i1⟩
  | 35 => ⟨S_, .f32⟩
  | 36 => ⟨S100000, .f32⟩
  | 37 => ⟨S100000, .f32⟩
  | 38 => ⟨S100000, .f32⟩
  | 39 => ⟨S_, .f32⟩
  | 40 => ⟨S_, .f32⟩
  | 41 => ⟨S100000, .f32⟩
  | 42 => ⟨S100000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000, .f32⟩
  | 62 => ⟨S1700000, .f32⟩
  | 63 => ⟨S100000x128, .f32⟩
  | 64 => ⟨S100000x128, .f32⟩
  | 65 => ⟨S_, .i32⟩
  | 66 => ⟨S1700000, .i32⟩
  | 67 => ⟨S1700000, .i1⟩
  | 68 => ⟨S_, .i32⟩
  | 69 => ⟨S1700000, .i32⟩
  | 70 => ⟨S1700000, .i32⟩
  | 71 => ⟨S1700000, .i32⟩
  | 72 => ⟨S1700000x1, .i32⟩
  | 73 => ⟨S1700000x128, .f32⟩
  | 74 => ⟨S1700000x1, .f32⟩
  | 75 => ⟨S1700000x128, .f32⟩
  | 76 => ⟨S1700000x128, .f32⟩
  | 77 => ⟨S_, .f32⟩
  | 78 => ⟨S100000x128, .f32⟩
  | 79 => ⟨S1700000x1, .i32⟩
  | 80 => ⟨S100000x128, .f32⟩
  | 81 => ⟨S1x128, .f32⟩
  | 82 => ⟨S100000x128, .f32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S128, .f32⟩
  | 89 => ⟨S128, .f32⟩
  | 90 => ⟨S128, .f32⟩
  | 91 => ⟨S1x128, .f32⟩
  | 92 => ⟨S100000x128, .f32⟩
  | 93 => ⟨S100000x128, .f32⟩
  | 94 => ⟨S1x128, .f32⟩
  | 95 => ⟨S100000x128, .f32⟩
  | 96 => ⟨S100000x128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S100000x128, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000x128, .f32⟩
  | 113 => ⟨S1700000x1, .f32⟩
  | 114 => ⟨S1700000x128, .f32⟩
  | 115 => ⟨S1700000x128, .f32⟩
  | 116 => ⟨S_, .f32⟩
  | 117 => ⟨S100000x128, .f32⟩
  | 118 => ⟨S1700000x1, .i32⟩
  | 119 => ⟨S100000x128, .f32⟩
  | 120 => ⟨S1x128, .f32⟩
  | 121 => ⟨S100000x128, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x256, .f32⟩

abbrev hbmTy0_1 (i : Nat) : BufTy := match i % 128 with
  | 0 => ⟨S128, .f32⟩
  | 1 => ⟨S128, .f32⟩
  | 2 => ⟨S128, .f32⟩
  | 3 => ⟨S1x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S1x128, .f32⟩
  | 10 => ⟨S100000x128, .f32⟩
  | 11 => ⟨S100000x128, .f32⟩
  | 12 => ⟨S_, .f32⟩
  | 13 => ⟨S100000x128, .f32⟩
  | 14 => ⟨S100000x128, .f32⟩
  | 15 => ⟨S100000x1, .f32⟩
  | 16 => ⟨S_, .i32⟩
  | 17 => ⟨S1700000, .i32⟩
  | 18 => ⟨S1700000, .i1⟩
  | 19 => ⟨S_, .i32⟩
  | 20 => ⟨S1700000, .i32⟩
  | 21 => ⟨S1700000, .i32⟩
  | 22 => ⟨S1700000, .i32⟩
  | 23 => ⟨S1700000x1, .i32⟩
  | 24 => ⟨S1700000x1, .f32⟩
  | 25 => ⟨S1700000x1, .f32⟩
  | 26 => ⟨S1700000x1, .f32⟩
  | 27 => ⟨S_, .f32⟩
  | 28 => ⟨S100000x1, .f32⟩
  | 29 => ⟨S1700000x1, .i32⟩
  | 30 => ⟨S100000x1, .f32⟩
  | 31 => ⟨S1x1, .f32⟩
  | 32 => ⟨S100000x1, .f32⟩
  | 33 => ⟨S100000x1, .f32⟩
  | 34 => ⟨S100000, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_cst_0 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v17 : Ref sig .tc := ⟨.hbm, 42, rfl⟩
abbrev main_c : Ref sig .tc := ⟨.hbm, 43, rfl⟩
abbrev main_v18 : Ref sig .tc := ⟨.hbm, 44, rfl⟩
abbrev main_v19 : Ref sig .tc := ⟨.hbm, 45, rfl⟩
abbrev main_c_4 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_5 : Ref sig .tc := ⟨.hbm, 53, rfl⟩
abbrev main_v26 : Ref sig .tc := ⟨.hbm, 54, rfl⟩
abbrev main_v27 : Ref sig .tc := ⟨.hbm, 55, rfl⟩
abbrev main_c_6 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_c_7 : Ref sig .tc := ⟨.hbm, 65, rfl⟩
abbrev main_v36 : Ref sig .tc := ⟨.hbm, 66, rfl⟩
abbrev main_v37 : Ref sig .tc := ⟨.hbm, 67, rfl⟩
abbrev main_c_8 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_9 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_10 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_call1_cst : Ref sig .tc := ⟨.hbm, 100, rfl⟩
abbrev main_call1_v0 : Ref sig .tc := ⟨.hbm, 101, rfl⟩
abbrev main_v67 : Ref sig .tc := ⟨.hbm, 102, rfl⟩
abbrev main_v68 : Ref sig .tc := ⟨.hbm, 103, rfl⟩
abbrev main_c_11 : Ref sig .tc := ⟨.hbm, 104, rfl⟩
abbrev main_v69 : Ref sig .tc := ⟨.hbm, 105, rfl⟩
abbrev main_v70 : Ref sig .tc := ⟨.hbm, 106, rfl⟩
abbrev main_c_12 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_13 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_14 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_call2_cst : Ref sig .tc := ⟨.hbm, 140, rfl⟩
abbrev main_call2_v0 : Ref sig .tc := ⟨.hbm, 141, rfl⟩
abbrev main_v101 : Ref sig .tc := ⟨.hbm, 142, rfl⟩
abbrev main_v102 : Ref sig .tc := ⟨.hbm, 143, rfl⟩
abbrev main_c_15 : Ref sig .tc := ⟨.hbm, 144, rfl⟩
abbrev main_v103 : Ref sig .tc := ⟨.hbm, 145, rfl⟩
abbrev main_v104 : Ref sig .tc := ⟨.hbm, 146, rfl⟩
abbrev main_c_16 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_cst_17 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.KRun.lean ====
/-
  The kernel program's run, with its RESULT read back.

  The program is twelve segments in a row: stretches of host operations and six kernel regions. The buffer contents at
  each boundary are a fold through the segments from the launch memory; the last boundary's contents are `W12`. Every
  weakly fair execution terminates without a fault in a state whose unscoped buffers hold exactly `W12`: in
  particular the result buffer holds `W12` at its reference, and the argument arrays are as launched. The frame
  statement keeps only the arguments; here the result buffer is kept as well, so that the value of the result can be
  computed from the fold.
-/
import proofs.«151952_j29094108463582_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and every argument array as launched: the segments' chain from the launch state to the last
    thread state, whose buffers are read against the final state one by one. -/
theorem run_result : θ_run defs (onTc (τ := τ) (main (F := F))) ⟨m, fun _ => 0, ρ⟩ (fun r => ∀ c : Dev nD,
      r.2.mem ((c.tc : Thread nD τ).loc main_v81) = W12 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v81 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c)⟩)

end Cert.KernelIdeal.Result

end
-- ==== Proof.Carry.lean ====
/-
  Buffers that ride through the kernel program untouched.

  The program's buffer contents at the boundaries between its twelve segments are a fold from the launch memory: a
  stretch of host operations rewrites the buffers it writes and leaves every other buffer alone, and a kernel region
  rewrites its own output array and leaves every buffer that is not one of its arrays alone. So an argument array
  holds its launch contents at every boundary, and an intermediate array written once (the two edge-endpoint index
  vectors, the edge normalisation, the residual product) still holds, at each later boundary where it is read, what
  it held where it was written. Each lemma below walks one buffer back from the boundary where it is read to the
  boundary where it was written, one segment at a time.
-/
import proofs.«151952_j29094108463582_1_alg».proof.Proof.Gen.KernelIdeal.Frame
import Idealize.ShloMosaic.PureOps.Ideal

noncomputable section

namespace Cert.Bridge.Carry

open Idealize.ShloMosaic Idealize.ShloMosaic.TcCoe Idealize.SL.Sem Cert.KernelIdeal Cert.KernelIdeal.Gen

/-- No operation of a literal stretch of host operations writes the buffer: each operation's written buffer is a
    different reference. -/
macro "not_written " ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

variable (m : (ℓ : Loc nD τ sig) → Buf (Elt Ideal) ℓ) (ρ : Dev nD → PrngReg) (c : Dev nD)

/-! ## One segment at a time -/

section Steps
variable (b : Ref sig .tc)

theorem host0 (h : ∀ op ∈ (hostOps0 : List (HloOp τ sig (Elt Ideal))), Proc.devRef .tc b ∉ op.writes) :
    W1 m ρ c (Proc.devRef .tc b) = m ((c : Thread nD τ).loc b) :=
  StableHlo.after_of_forall_not_mem (b := Proc.devRef .tc b) _ _ h
theorem host0_1 (h : ∀ op ∈ (hostOps0_1 : List (HloOp τ sig (Elt Ideal))), Proc.devRef .tc b ∉ op.writes) :
    W2 m ρ c (Proc.devRef .tc b) = W1 m ρ c (Proc.devRef .tc b) :=
  StableHlo.after_of_forall_not_mem (b := Proc.devRef .tc b) _ _ h
theorem host0_2 (h : ∀ op ∈ (hostOps0_2 : List (HloOp τ sig (Elt Ideal))), Proc.devRef .tc b ∉ op.writes) :
    W3 m ρ c (Proc.devRef .tc b) = W2 m ρ c (Proc.devRef .tc b) :=
  StableHlo.after_of_forall_not_mem (b := Proc.devRef .tc b) _ _ h
theorem host2 (h : ∀ op ∈ (hostOps2 : List (HloOp τ sig (Elt Ideal))), Proc.devRef .tc b ∉ op.writes) :
    W6 m ρ c (Proc.devRef .tc b) = W5 m ρ c (Proc.devRef .tc b) :=
  StableHlo.after_of_forall_not_mem (b := Proc.devRef .tc b) _ _ h
theorem host4 (h : ∀ op ∈ (hostOps4 : List (HloOp τ sig (Elt Ideal))), Proc.devRef .tc b ∉ op.writes) :
    W9 m ρ c (Proc.devRef .tc b) = W8 m ρ c (Proc.devRef .tc b) :=
  StableHlo.after_of_forall_not_mem (b := Proc.devRef .tc b) _ _ h

end Steps

/-! ## The argument arrays at the first region's entry -/

theorem W3_main_arg0 : W3 m ρ c (Proc.devRef .tc main_arg0) = m ((c : Thread nD τ).loc main_arg0) :=
  (host0_2 m ρ c main_arg0 (by not_written hostOps0_2)).trans ((host0_1 m ρ c main_arg0 (by not_written hostOps0_1)).trans (host0 m ρ c main_arg0 (by not_written hostOps0)))
theorem W3_main_arg9 : W3 m ρ c (Proc.devRef .tc main_arg9) = m ((c : Thread nD τ).loc main_arg9) :=
  (host0_2 m ρ c main_arg9 (by not_written hostOps0_2)).trans ((host0_1 m ρ c main_arg9 (by not_written hostOps0_1)).trans (host0 m ρ c main_arg9 (by not_written hostOps0)))
theorem W3_main_arg3 : W3 m ρ c (Proc.devRef .tc main_arg3) = m ((c : Thread nD τ).loc main_arg3) :=
  (host0_2 m ρ c main_arg3 (by not_written hostOps0_2)).trans ((host0_1 m ρ c main_arg3 (by not_written hostOps0_1)).trans (host0 m ρ c main_arg3 (by not_written hostOps0)))
theorem W3_main_arg4 : W3 m ρ c (Proc.devRef .tc main_arg4) = m ((c : Thread nD τ).loc main_arg4) :=
  (host0_2 m ρ c main_arg4 (by not_written hostOps0_2)).trans ((host0_1 m ρ c main_arg4 (by not_written hostOps0_1)).trans (host0 m ρ c main_arg4 (by not_written hostOps0)))
theorem W3_main_arg10 : W3 m ρ c (Proc.devRef .tc main_arg10) = m ((c : Thread nD τ).loc main_arg10) :=
  (host0_2 m ρ c main_arg10 (by not_written hostOps0_2)).trans ((host0_1 m ρ c main_arg10 (by not_written hostOps0_1)).trans (host0 m ρ c main_arg10 (by not_written hostOps0)))
theorem W3_main_arg11 : W3 m ρ c (Proc.devRef .tc main_arg11) = m ((c : Thread nD τ).loc main_arg11) :=
  (host0_2 m ρ c main_arg11 (by not_written hostOps0_2)).trans ((host0_1 m ρ c main_arg11 (by not_written hostOps0_1)).trans (host0 m ρ c main_arg11 (by not_written hostOps0)))
theorem W3_main_arg12 : W3 m ρ c (Proc.devRef .tc main_arg12) = m ((c : Thread nD τ).loc main_arg12) :=
  (host0_2 m ρ c main_arg12 (by not_written hostOps0_2)).trans ((host0_1 m ρ c main_arg12 (by not_written hostOps0_1)).trans (host0 m ρ c main_arg12 (by not_written hostOps0)))
theorem W3_main_arg13 : W3 m ρ c (Proc.devRef .tc main_arg13) = m ((c : Thread nD τ).loc main_arg13) :=
  (host0_2 m ρ c main_arg13 (by not_written hostOps0_2)).trans ((host0_1 m ρ c main_arg13 (by not_written hostOps0_1)).trans (host0 m ρ c main_arg13 (by not_written hostOps0)))
theorem W3_main_arg5 : W3 m ρ c (Proc.devRef .tc main_arg5) = m ((c : Thread nD τ).loc main_arg5) :=
  (host0_2 m ρ c main_arg5 (by not_written hostOps0_2)).trans ((host0_1 m ρ c main_arg5 (by not_written hostOps0_1)).trans (host0 m ρ c main_arg5 (by not_written hostOps0)))
theorem W3_main_arg6 : W3 m ρ c (Proc.devRef .tc main_arg6) = m ((c : Thread nD τ).loc main_arg6) :=
  (host0_2 m ρ c main_arg6 (by not_written hostOps0_2)).trans ((host0_1 m ρ c main_arg6 (by not_written hostOps0_1)).trans (host0 m ρ c main_arg6 (by not_written hostOps0)))
theorem W3_main_arg14 : W3 m ρ c (Proc.devRef .tc main_arg14) = m ((c : Thread nD τ).loc main_arg14) :=
  (host0_2 m ρ c main_arg14 (by not_written hostOps0_2)).trans ((host0_1 m ρ c main_arg14 (by not_written hostOps0_1)).trans (host0 m ρ c main_arg14 (by not_written hostOps0)))
theorem W3_main_arg15 : W3 m ρ c (Proc.devRef .tc main_arg15) = m ((c : Thread nD τ).loc main_arg15) :=
  (host0_2 m ρ c main_arg15 (by not_written hostOps0_2)).trans ((host0_1 m ρ c main_arg15 (by not_written hostOps0_1)).trans (host0 m ρ c main_arg15 (by not_written hostOps0)))
theorem W3_main_arg16 : W3 m ρ c (Proc.devRef .tc main_arg16) = m ((c : Thread nD τ).loc main_arg16) :=
  (host0_2 m ρ c main_arg16 (by not_written hostOps0_2)).trans ((host0_1 m ρ c main_arg16 (by not_written hostOps0_1)).trans (host0 m ρ c main_arg16 (by not_written hostOps0)))
theorem W3_main_arg17 : W3 m ρ c (Proc.devRef .tc main_arg17) = m ((c : Thread nD τ).loc main_arg17) :=
  (host0_2 m ρ c main_arg17 (by not_written hostOps0_2)).trans ((host0_1 m ρ c main_arg17 (by not_written hostOps0_1)).trans (host0 m ρ c main_arg17 (by not_written hostOps0)))
theorem W3_main_arg7 : W3 m ρ c (Proc.devRef .tc main_arg7) = m ((c : Thread nD τ).loc main_arg7) :=
  (host0_2 m ρ c main_arg7 (by not_written hostOps0_2)).trans ((host0_1 m ρ c main_arg7 (by not_written hostOps0_1)).trans (host0 m ρ c main_arg7 (by not_written hostOps0)))
theorem W3_main_arg8 : W3 m ρ c (Proc.devRef .tc main_arg8) = m ((c : Thread nD τ).loc main_arg8) :=
  (host0_2 m ρ c main_arg8 (by not_written hostOps0_2)).trans ((host0_1 m ρ c main_arg8 (by not_written hostOps0_1)).trans (host0 m ρ c main_arg8 (by not_written hostOps0)))

/-! ## Past the first two regions (the residual product and the first layer's product) -/

/-- The node features are an input array of the first region: it leaves them as it found them. -/
theorem W4_main_arg0 : W4 m ρ c (Proc.devRef .tc main_arg0) = m ((c : Thread nD τ).loc main_arg0) :=
  ((W4_arr m ρ c 0).trans (((dat0 (V3 m ρ) c).arrAt_in 0 rfl _).trans (A_eq0 (V3 m ρ) c 0))).trans (W3_main_arg0 m ρ c)
theorem W4_main_arg3 : W4 m ρ c (Proc.devRef .tc main_arg3) = m ((c : Thread nD τ).loc main_arg3) :=
  (W4_of_ne m ρ c main_arg3 (by decide)).trans (W3_main_arg3 m ρ c)
theorem W4_main_arg4 : W4 m ρ c (Proc.devRef .tc main_arg4) = m ((c : Thread nD τ).loc main_arg4) :=
  (W4_of_ne m ρ c main_arg4 (by decide)).trans (W3_main_arg4 m ρ c)
theorem W4_main_arg10 : W4 m ρ c (Proc.devRef .tc main_arg10) = m ((c : Thread nD τ).loc main_arg10) :=
  (W4_of_ne m ρ c main_arg10 (by decide)).trans (W3_main_arg10 m ρ c)
theorem W4_main_arg11 : W4 m ρ c (Proc.devRef .tc main_arg11) = m ((c : Thread nD τ).loc main_arg11) :=
  (W4_of_ne m ρ c main_arg11 (by decide)).trans (W3_main_arg11 m ρ c)
theorem W4_main_arg12 : W4 m ρ c (Proc.devRef .tc main_arg12) = m ((c : Thread nD τ).loc main_arg12) :=
  (W4_of_ne m ρ c main_arg12 (by decide)).trans (W3_main_arg12 m ρ c)
theorem W4_main_arg13 : W4 m ρ c (Proc.devRef .tc main_arg13) = m ((c : Thread nD τ).loc main_arg13) :=
  (W4_of_ne m ρ c main_arg13 (by decide)).trans (W3_main_arg13 m ρ c)
theorem W4_main_arg5 : W4 m ρ c (Proc.devRef .tc main_arg5) = m ((c : Thread nD τ).loc main_arg5) :=
  (W4_of_ne m ρ c main_arg5 (by decide)).trans (W3_main_arg5 m ρ c)
theorem W4_main_arg6 : W4 m ρ c (Proc.devRef .tc main_arg6) = m ((c : Thread nD τ).loc main_arg6) :=
  (W4_of_ne m ρ c main_arg6 (by decide)).trans (W3_main_arg6 m ρ c)
theorem W4_main_arg14 : W4 m ρ c (Proc.devRef .tc main_arg14) = m ((c : Thread nD τ).loc main_arg14) :=
  (W4_of_ne m ρ c main_arg14 (by decide)).trans (W3_main_arg14 m ρ c)
theorem W4_main_arg15 : W4 m ρ c (Proc.devRef .tc main_arg15) = m ((c : Thread nD τ).loc main_arg15) :=
  (W4_of_ne m ρ c main_arg15 (by decide)).trans (W3_main_arg15 m ρ c)
theorem W4_main_arg16 : W4 m ρ c (Proc.devRef .tc main_arg16) = m ((c : Thread nD τ).loc main_arg16) :=
  (W4_of_ne m ρ c main_arg16 (by decide)).trans (W3_main_arg16 m ρ c)
theorem W4_main_arg17 : W4 m ρ c (Proc.devRef .tc main_arg17) = m ((c : Thread nD τ).loc main_arg17) :=
  (W4_of_ne m ρ c main_arg17 (by decide)).trans (W3_main_arg17 m ρ c)
theorem W4_main_arg7 : W4 m ρ c (Proc.devRef .tc main_arg7) = m ((c : Thread nD τ).loc main_arg7) :=
  (W4_of_ne m ρ c main_arg7 (by decide)).trans (W3_main_arg7 m ρ c)
theorem W4_main_arg8 : W4 m ρ c (Proc.devRef .tc main_arg8) = m ((c : Thread nD τ).loc main_arg8) :=
  (W4_of_ne m ρ c main_arg8 (by decide)).trans (W3_main_arg8 m ρ c)
theorem W5_main_arg4 : W5 m ρ c (Proc.devRef .tc main_arg4) = m ((c : Thread nD τ).loc main_arg4) :=
  (W5_of_ne m ρ c main_arg4 (by decide)).trans (W4_main_arg4 m ρ c)
theorem W5_main_arg10 : W5 m ρ c (Proc.devRef .tc main_arg10) = m ((c : Thread nD τ).loc main_arg10) :=
  (W5_of_ne m ρ c main_arg10 (by decide)).trans (W4_main_arg10 m ρ c)
theorem W5_main_arg11 : W5 m ρ c (Proc.devRef .tc main_arg11) = m ((c : Thread nD τ).loc main_arg11) :=
  (W5_of_ne m ρ c main_arg11 (by decide)).trans (W4_main_arg11 m ρ c)
theorem W5_main_arg12 : W5 m ρ c (Proc.devRef .tc main_arg12) = m ((c : Thread nD τ).loc main_arg12) :=
  (W5_of_ne m ρ c main_arg12 (by decide)).trans (W4_main_arg12 m ρ c)
theorem W5_main_arg13 : W5 m ρ c (Proc.devRef .tc main_arg13) = m ((c : Thread nD τ).loc main_arg13) :=
  (W5_of_ne m ρ c main_arg13 (by decide)).trans (W4_main_arg13 m ρ c)
theorem W5_main_arg5 : W5 m ρ c (Proc.devRef .tc main_arg5) = m ((c : Thread nD τ).loc main_arg5) :=
  (W5_of_ne m ρ c main_arg5 (by decide)).trans (W4_main_arg5 m ρ c)
theorem W5_main_arg6 : W5 m ρ c (Proc.devRef .tc main_arg6) = m ((c : Thread nD τ).loc main_arg6) :=
  (W5_of_ne m ρ c main_arg6 (by decide)).trans (W4_main_arg6 m ρ c)
theorem W5_main_arg14 : W5 m ρ c (Proc.devRef .tc main_arg14) = m ((c : Thread nD τ).loc main_arg14) :=
  (W5_of_ne m ρ c main_arg14 (by decide)).trans (W4_main_arg14 m ρ c)
theorem W5_main_arg15 : W5 m ρ c (Proc.devRef .tc main_arg15) = m ((c : Thread nD τ).loc main_arg15) :=
  (W5_of_ne m ρ c main_arg15 (by decide)).trans (W4_main_arg15 m ρ c)
theorem W5_main_arg16 : W5 m ρ c (Proc.devRef .tc main_arg16) = m ((c : Thread nD τ).loc main_arg16) :=
  (W5_of_ne m ρ c main_arg16 (by decide)).trans (W4_main_arg16 m ρ c)
theorem W5_main_arg17 : W5 m ρ c (Proc.devRef .tc main_arg17) = m ((c : Thread nD τ).loc main_arg17) :=
  (W5_of_ne m ρ c main_arg17 (by decide)).trans (W4_main_arg17 m ρ c)
theorem W5_main_arg7 : W5 m ρ c (Proc.devRef .tc main_arg7) = m ((c : Thread nD τ).loc main_arg7) :=
  (W5_of_ne m ρ c main_arg7 (by decide)).trans (W4_main_arg7 m ρ c)
theorem W5_main_arg8 : W5 m ρ c (Proc.devRef .tc main_arg8) = m ((c : Thread nD τ).loc main_arg8) :=
  (W5_of_ne m ρ c main_arg8 (by decide)).trans (W4_main_arg8 m ρ c)

/-! ## Past the first aggregation -/
theorem W6_main_arg4 : W6 m ρ c (Proc.devRef .tc main_arg4) = m ((c : Thread nD τ).loc main_arg4) :=
  (host2 m ρ c main_arg4 (by not_written hostOps2)).trans (W5_main_arg4 m ρ c)
theorem W6_main_arg10 : W6 m ρ c (Proc.devRef .tc main_arg10) = m ((c : Thread nD τ).loc main_arg10) :=
  (host2 m ρ c main_arg10 (by not_written hostOps2)).trans (W5_main_arg10 m ρ c)
theorem W6_main_arg11 : W6 m ρ c (Proc.devRef .tc main_arg11) = m ((c : Thread nD τ).loc main_arg11) :=
  (host2 m ρ c main_arg11 (by not_written hostOps2)).trans (W5_main_arg11 m ρ c)
theorem W6_main_arg12 : W6 m ρ c (Proc.devRef .tc main_arg12) = m ((c : Thread nD τ).loc main_arg12) :=
  (host2 m ρ c main_arg12 (by not_written hostOps2)).trans (W5_main_arg12 m ρ c)
theorem W6_main_arg13 : W6 m ρ c (Proc.devRef .tc main_arg13) = m ((c : Thread nD τ).loc main_arg13) :=
  (host2 m ρ c main_arg13 (by not_written hostOps2)).trans (W5_main_arg13 m ρ c)
theorem W6_main_arg5 : W6 m ρ c (Proc.devRef .tc main_arg5) = m ((c : Thread nD τ).loc main_arg5) :=
  (host2 m ρ c main_arg5 (by not_written hostOps2)).trans (W5_main_arg5 m ρ c)
theorem W6_main_arg6 : W6 m ρ c (Proc.devRef .tc main_arg6) = m ((c : Thread nD τ).loc main_arg6) :=
  (host2 m ρ c main_arg6 (by not_written hostOps2)).trans (W5_main_arg6 m ρ c)
theorem W6_main_arg14 : W6 m ρ c (Proc.devRef .tc main_arg14) = m ((c : Thread nD τ).loc main_arg14) :=
  (host2 m ρ c main_arg14 (by not_written hostOps2)).trans (W5_main_arg14 m ρ c)
theorem W6_main_arg15 : W6 m ρ c (Proc.devRef .tc main_arg15) = m ((c : Thread nD τ).loc main_arg15) :=
  (host2 m ρ c main_arg15 (by not_written hostOps2)).trans (W5_main_arg15 m ρ c)
theorem W6_main_arg16 : W6 m ρ c (Proc.devRef .tc main_arg16) = m ((c : Thread nD τ).loc main_arg16) :=
  (host2 m ρ c main_arg16 (by not_written hostOps2)).trans (W5_main_arg16 m ρ c)
theorem W6_main_arg17 : W6 m ρ c (Proc.devRef .tc main_arg17) = m ((c : Thread nD τ).loc main_arg17) :=
  (host2 m ρ c main_arg17 (by not_written hostOps2)).trans (W5_main_arg17 m ρ c)
theorem W6_main_arg7 : W6 m ρ c (Proc.devRef .tc main_arg7) = m ((c : Thread nD τ).loc main_arg7) :=
  (host2 m ρ c main_arg7 (by not_written hostOps2)).trans (W5_main_arg7 m ρ c)
theorem W6_main_arg8 : W6 m ρ c (Proc.devRef .tc main_arg8) = m ((c : Thread nD τ).loc main_arg8) :=
  (host2 m ρ c main_arg8 (by not_written hostOps2)).trans (W5_main_arg8 m ρ c)
theorem W7_main_arg5 : W7 m ρ c (Proc.devRef .tc main_arg5) = m ((c : Thread nD τ).loc main_arg5) :=
  (W7_of_ne m ρ c main_arg5 (by decide)).trans (W6_main_arg5 m ρ c)
theorem W7_main_arg6 : W7 m ρ c (Proc.devRef .tc main_arg6) = m ((c : Thread nD τ).loc main_arg6) :=
  (W7_of_ne m ρ c main_arg6 (by decide)).trans (W6_main_arg6 m ρ c)
theorem W7_main_arg14 : W7 m ρ c (Proc.devRef .tc main_arg14) = m ((c : Thread nD τ).loc main_arg14) :=
  (W7_of_ne m ρ c main_arg14 (by decide)).trans (W6_main_arg14 m ρ c)
theorem W7_main_arg15 : W7 m ρ c (Proc.devRef .tc main_arg15) = m ((c : Thread nD τ).loc main_arg15) :=
  (W7_of_ne m ρ c main_arg15 (by decide)).trans (W6_main_arg15 m ρ c)
theorem W7_main_arg16 : W7 m ρ c (Proc.devRef .tc main_arg16) = m ((c : Thread nD τ).loc main_arg16) :=
  (W7_of_ne m ρ c main_arg16 (by decide)).trans (W6_main_arg16 m ρ c)
theorem W7_main_arg17 : W7 m ρ c (Proc.devRef .tc main_arg17) = m ((c : Thread nD τ).loc main_arg17) :=
  (W7_of_ne m ρ c main_arg17 (by decide)).trans (W6_main_arg17 m ρ c)
theorem W7_main_arg7 : W7 m ρ c (Proc.devRef .tc main_arg7) = m ((c : Thread nD τ).loc main_arg7) :=
  (W7_of_ne m ρ c main_arg7 (by decide)).trans (W6_main_arg7 m ρ c)
theorem W7_main_arg8 : W7 m ρ c (Proc.devRef .tc main_arg8) = m ((c : Thread nD τ).loc main_arg8) :=
  (W7_of_ne m ρ c main_arg8 (by decide)).trans (W6_main_arg8 m ρ c)
theorem W8_main_arg6 : W8 m ρ c (Proc.devRef .tc main_arg6) = m ((c : Thread nD τ).loc main_arg6) :=
  (W8_of_ne m ρ c main_arg6 (by decide)).trans (W7_main_arg6 m ρ c)
theorem W8_main_arg14 : W8 m ρ c (Proc.devRef .tc main_arg14) = m ((c : Thread nD τ).loc main_arg14) :=
  (W8_of_ne m ρ c main_arg14 (by decide)).trans (W7_main_arg14 m ρ c)
theorem W8_main_arg15 : W8 m ρ c (Proc.devRef .tc main_arg15) = m ((c : Thread nD τ).loc main_arg15) :=
  (W8_of_ne m ρ c main_arg15 (by decide)).trans (W7_main_arg15 m ρ c)
theorem W8_main_arg16 : W8 m ρ c (Proc.devRef .tc main_arg16) = m ((c : Thread nD τ).loc main_arg16) :=
  (W8_of_ne m ρ c main_arg16 (by decide)).trans (W7_main_arg16 m ρ c)
theorem W8_main_arg17 : W8 m ρ c (Proc.devRef .tc main_arg17) = m ((c : Thread nD τ).loc main_arg17) :=
  (W8_of_ne m ρ c main_arg17 (by decide)).trans (W7_main_arg17 m ρ c)
theorem W8_main_arg7 : W8 m ρ c (Proc.devRef .tc main_arg7) = m ((c : Thread nD τ).loc main_arg7) :=
  (W8_of_ne m ρ c main_arg7 (by decide)).trans (W7_main_arg7 m ρ c)
theorem W8_main_arg8 : W8 m ρ c (Proc.devRef .tc main_arg8) = m ((c : Thread nD τ).loc main_arg8) :=
  (W8_of_ne m ρ c main_arg8 (by decide)).trans (W7_main_arg8 m ρ c)
theorem W9_main_arg6 : W9 m ρ c (Proc.devRef .tc main_arg6) = m ((c : Thread nD τ).loc main_arg6) :=
  (host4 m ρ c main_arg6 (by not_written hostOps4)).trans (W8_main_arg6 m ρ c)
theorem W9_main_arg14 : W9 m ρ c (Proc.devRef .tc main_arg14) = m ((c : Thread nD τ).loc main_arg14) :=
  (host4 m ρ c main_arg14 (by not_written hostOps4)).trans (W8_main_arg14 m ρ c)
theorem W9_main_arg15 : W9 m ρ c (Proc.devRef .tc main_arg15) = m ((c : Thread nD τ).loc main_arg15) :=
  (host4 m ρ c main_arg15 (by not_written hostOps4)).trans (W8_main_arg15 m ρ c)
theorem W9_main_arg16 : W9 m ρ c (Proc.devRef .tc main_arg16) = m ((c : Thread nD τ).loc main_arg16) :=
  (host4 m ρ c main_arg16 (by not_written hostOps4)).trans (W8_main_arg16 m ρ c)
theorem W9_main_arg17 : W9 m ρ c (Proc.devRef .tc main_arg17) = m ((c : Thread nD τ).loc main_arg17) :=
  (host4 m ρ c main_arg17 (by not_written hostOps4)).trans (W8_main_arg17 m ρ c)
theorem W9_main_arg7 : W9 m ρ c (Proc.devRef .tc main_arg7) = m ((c : Thread nD τ).loc main_arg7) :=
  (host4 m ρ c main_arg7 (by not_written hostOps4)).trans (W8_main_arg7 m ρ c)
theorem W9_main_arg8 : W9 m ρ c (Proc.devRef .tc main_arg8) = m ((c : Thread nD τ).loc main_arg8) :=
  (host4 m ρ c main_arg8 (by not_written hostOps4)).trans (W8_main_arg8 m ρ c)
theorem W10_main_arg7 : W10 m ρ c (Proc.devRef .tc main_arg7) = m ((c : Thread nD τ).loc main_arg7) :=
  (W10_of_ne m ρ c main_arg7 (by decide)).trans (W9_main_arg7 m ρ c)
theorem W10_main_arg8 : W10 m ρ c (Proc.devRef .tc main_arg8) = m ((c : Thread nD τ).loc main_arg8) :=
  (W10_of_ne m ρ c main_arg8 (by decide)).trans (W9_main_arg8 m ρ c)
theorem W11_main_arg8 : W11 m ρ c (Proc.devRef .tc main_arg8) = m ((c : Thread nD τ).loc main_arg8) :=
  (W11_of_ne m ρ c main_arg8 (by decide)).trans (W10_main_arg8 m ρ c)

/-! ## The intermediate arrays written before the first region and read by every aggregation: the source and target
    index vectors of the edges with the self loops appended, and the symmetric normalisation of the edge weights -/
theorem W5_main_v3 : W5 m ρ c (Proc.devRef .tc main_v3) = W3 m ρ c (Proc.devRef .tc main_v3) :=
  (W5_of_ne m ρ c main_v3 (by decide)).trans (W4_of_ne m ρ c main_v3 (by decide))
theorem W8_main_v3 : W8 m ρ c (Proc.devRef .tc main_v3) = W3 m ρ c (Proc.devRef .tc main_v3) :=
  (W8_of_ne m ρ c main_v3 (by decide)).trans ((W7_of_ne m ρ c main_v3 (by decide)).trans ((host2 m ρ c main_v3 (by not_written hostOps2)).trans (W5_main_v3 m ρ c)))
theorem W11_main_v3 : W11 m ρ c (Proc.devRef .tc main_v3) = W3 m ρ c (Proc.devRef .tc main_v3) :=
  (W11_of_ne m ρ c main_v3 (by decide)).trans ((W10_of_ne m ρ c main_v3 (by decide)).trans ((host4 m ρ c main_v3 (by not_written hostOps4)).trans (W8_main_v3 m ρ c)))
theorem W5_main_v6 : W5 m ρ c (Proc.devRef .tc main_v6) = W3 m ρ c (Proc.devRef .tc main_v6) :=
  (W5_of_ne m ρ c main_v6 (by decide)).trans (W4_of_ne m ρ c main_v6 (by decide))
theorem W8_main_v6 : W8 m ρ c (Proc.devRef .tc main_v6) = W3 m ρ c (Proc.devRef .tc main_v6) :=
  (W8_of_ne m ρ c main_v6 (by decide)).trans ((W7_of_ne m ρ c main_v6 (by decide)).trans ((host2 m ρ c main_v6 (by not_written hostOps2)).trans (W5_main_v6 m ρ c)))
theorem W11_main_v6 : W11 m ρ c (Proc.devRef .tc main_v6) = W3 m ρ c (Proc.devRef .tc main_v6) :=
  (W11_of_ne m ρ c main_v6 (by decide)).trans ((W10_of_ne m ρ c main_v6 (by decide)).trans ((host4 m ρ c main_v6 (by not_written hostOps4)).trans (W8_main_v6 m ρ c)))
theorem W5_main_v33 : W5 m ρ c (Proc.devRef .tc main_v33) = W3 m ρ c (Proc.devRef .tc main_v33) :=
  (W5_of_ne m ρ c main_v33 (by decide)).trans (W4_of_ne m ρ c main_v33 (by decide))
theorem W8_main_v33 : W8 m ρ c (Proc.devRef .tc main_v33) = W3 m ρ c (Proc.devRef .tc main_v33) :=
  (W8_of_ne m ρ c main_v33 (by decide)).trans ((W7_of_ne m ρ c main_v33 (by decide)).trans ((host2 m ρ c main_v33 (by not_written hostOps2)).trans (W5_main_v33 m ρ c)))
theorem W11_main_v33 : W11 m ρ c (Proc.devRef .tc main_v33) = W3 m ρ c (Proc.devRef .tc main_v33) :=
  (W11_of_ne m ρ c main_v33 (by decide)).trans ((W10_of_ne m ρ c main_v33 (by decide)).trans ((host4 m ρ c main_v33 (by not_written hostOps4)).trans (W8_main_v33 m ρ c)))

/-- The residual product, written by the first region, is read by the fifth. -/
theorem W9_main_v34 : W9 m ρ c (Proc.devRef .tc main_v34) = W4 m ρ c (Proc.devRef .tc main_v34) :=
  (host4 m ρ c main_v34 (by not_written hostOps4)).trans ((W8_of_ne m ρ c main_v34 (by decide)).trans ((W7_of_ne m ρ c main_v34 (by decide)).trans
    ((host2 m ρ c main_v34 (by not_written hostOps2)).trans (W5_of_ne m ρ c main_v34 (by decide)))))

end Cert.Bridge.Carry

end
-- ==== Proof.HostNorm.lean ====
/-
  Before the first matrix-product region the program prepares, by host operations, the two endpoint lists of the
  graph's edges with one self loop per node appended, and the symmetric normalisation of the edge weights: the
  weighted degree of every node (a scatter-add of the weights onto the targets), its inverse square root where the
  degree is positive and 0 elsewhere, and per edge the weight times the two endpoints' factors.

  The operations are, one for one, the reference's first operations, so each buffer holds the reference's stage of
  the same name. The chain is cut into four stretches, and each stretch is read from what the stretch before left:
    * the endpoint lists and the weights with the self loops' entries appended (concatenations);
    * the weighted degree, whether it is positive, and its guarded inverse square root;
    * the choice between that inverse square root and 0;
    * the per-edge product of the weight and the two gathered factors.
-/
import proofs.«151952_j29094108463582_1_alg».proof.Proof.Gen.KernelIdeal.Frame
import proofs.«151952_j29094108463582_1_alg».proof.Proof.Gen.ReferenceIdeal.Read
import Idealize.ShloMosaic.PureOps.Ideal

noncomputable section

namespace Cert.Bridge.HostNorm

open Idealize.ShloMosaic Idealize.ShloMosaic.TcCoe Idealize.SL.Sem Idealize.ShloMosaic.StableHlo Cert.KernelIdeal Cert.KernelIdeal.Gen
open Cert.ReferenceIdeal.Read

variable (m : (ℓ : Loc nD τ sig) → Buf (Elt Ideal) ℓ) (ρ : Dev nD → PrngReg) (c : Dev nD)

set_option quotPrecheck false
local notation "X1" => m ((c : Thread nD τ).loc main_arg1)
local notation "X2" => m ((c : Thread nD τ).loc main_arg2)

/-! ## A chain of operations run in two stretches -/

/-- The contents after a chain of operations are those after its second stretch from those after its first. -/
theorem after_append (l₁ l₂ : List (HloOp τ sig (Elt Ideal))) (G : Valuation τ sig (Elt Ideal)) :
    StableHlo.after (l₁ ++ l₂) G = StableHlo.after l₂ (StableHlo.after l₁ G) := by
  induction l₁ generalizing G with
  | nil => rfl
  | cons op l ih => exact ih _

/-- The first stretch of host operations, cut after the appended weights. -/
theorem after_first (G : Valuation τ sig (Elt Ideal)) :
    StableHlo.after hostOps0 G = StableHlo.after (hostOps0.drop 10) (StableHlo.after (hostOps0.take 10) G) := by
  rw [← after_append, List.take_append_drop]

/-! ## The endpoint lists and the weights, with the self loops appended -/

/-- The sources, the targets and the weights after the first ten operations. -/
theorem appended :
    StableHlo.after (hostOps0.take 10) (W0 m ρ c) (Proc.devRef .tc main_v3) = val_main_v3 (F := Ideal) X1
    ∧ StableHlo.after (hostOps0.take 10) (W0 m ρ c) (Proc.devRef .tc main_v6) = val_main_v6 (F := Ideal) X1
    ∧ StableHlo.after (hostOps0.take 10) (W0 m ρ c) (Proc.devRef .tc main_v8) = val_main_v8 (F := Ideal) X2 := by
  refine ⟨?_, ?_, ?_⟩
  · simp only [hostOps0, List.take_succ_cons, List.take_zero]
    after_results_simp
    rfl
  · simp only [hostOps0, List.take_succ_cons, List.take_zero]
    after_results_simp
    rfl
  · simp only [hostOps0, List.take_succ_cons, List.take_zero]
    after_results_simp
    rfl

/-! ## The weighted degree and its guarded inverse square root -/

section Stretches
variable (G : Valuation τ sig (Elt Ideal))

/-- From the targets and the weights: whether the weighted degree is positive, its guarded inverse square root, and
    the zero the next stretch chooses elsewhere; the endpoint lists and the weights stay. -/
theorem degree (h3 : G (Proc.devRef .tc main_v3) = val_main_v3 (F := Ideal) X1)
    (h6 : G (Proc.devRef .tc main_v6) = val_main_v6 (F := Ideal) X1)
    (h8 : G (Proc.devRef .tc main_v8) = val_main_v8 (F := Ideal) X2) :
    StableHlo.after (hostOps0.drop 10) G (Proc.devRef .tc main_v3) = val_main_v3 (F := Ideal) X1
    ∧ StableHlo.after (hostOps0.drop 10) G (Proc.devRef .tc main_v6) = val_main_v6 (F := Ideal) X1
    ∧ StableHlo.after (hostOps0.drop 10) G (Proc.devRef .tc main_v8) = val_main_v8 (F := Ideal) X2
    ∧ StableHlo.after (hostOps0.drop 10) G (Proc.devRef .tc main_v13) = val_main_v13 (F := Ideal) X1 X2
    ∧ StableHlo.after (hostOps0.drop 10) G (Proc.devRef .tc main_v16) = val_main_v16 (F := Ideal) X1 X2
    ∧ StableHlo.after (hostOps0.drop 10) G (Proc.devRef .tc main_cst_3) = val_main_cst_3 (F := Ideal) := by
  refine ⟨?_, ?_, ?_, ?_, ?_, ?_⟩
  · simp only [hostOps0, List.drop_succ_cons, List.drop_zero]
    after_results_simp
    exact h3
  · simp only [hostOps0, List.drop_succ_cons, List.drop_zero]
    after_results_simp
    exact h6
  · simp only [hostOps0, List.drop_succ_cons, List.drop_zero]
    after_results_simp
    exact h8
  · simp only [hostOps0, List.drop_succ_cons, List.drop_zero]
    after_results_simp
    rw [h6, h8]
    rfl
  · simp only [hostOps0, List.drop_succ_cons, List.drop_zero]
    after_results_simp
    rw [h6, h8]
    rfl
  · simp only [hostOps0, List.drop_succ_cons, List.drop_zero]
    after_results_simp
    rfl

/-- The choice: the inverse square root where the degree is positive, 0 elsewhere; the rest stays. Stated for any
    contents of the three buffers it reads. -/
theorem factor (A13 : (⟨S100000, .i1⟩ : BufTy).Contents (Elt Ideal)) (A16 : (⟨S100000, .f32⟩ : BufTy).Contents (Elt Ideal))
    (Az : (⟨S_, .f32⟩ : BufTy).Contents (Elt Ideal))
    (h3 : G (Proc.devRef .tc main_v3) = val_main_v3 (F := Ideal) X1)
    (h6 : G (Proc.devRef .tc main_v6) = val_main_v6 (F := Ideal) X1)
    (h8 : G (Proc.devRef .tc main_v8) = val_main_v8 (F := Ideal) X2)
    (h13 : G (Proc.devRef .tc main_v13) = A13) (h16 : G (Proc.devRef .tc main_v16) = A16)
    (hz : G (Proc.devRef .tc main_cst_3) = Az) :
    StableHlo.after hostOps0_1 G (Proc.devRef .tc main_v3) = val_main_v3 (F := Ideal) X1
    ∧ StableHlo.after hostOps0_1 G (Proc.devRef .tc main_v6) = val_main_v6 (F := Ideal) X1
    ∧ StableHlo.after hostOps0_1 G (Proc.devRef .tc main_v8) = val_main_v8 (F := Ideal) X2
    ∧ StableHlo.after hostOps0_1 G (Proc.devRef .tc main_v17)
        = select A13 A16 (broadcastInDim S100000 ![] bcast_S_S100000 (id Az)) := by
  refine ⟨?_, ?_, ?_, ?_⟩
  · simp only [hostOps0_1]
    after_results_simp
    exact h3
  · simp only [hostOps0_1]
    after_results_simp
    exact h6
  · simp only [hostOps0_1]
    after_results_simp
    exact h8
  · simp only [hostOps0_1]
    after_results_simp
    rw [h13, h16, hz]
    rfl

/-- The per-edge product: the weight times the factor gathered at the source and the factor gathered at the
    target (an index below 0 wrapped around first). -/
theorem product (h3 : G (Proc.devRef .tc main_v3) = val_main_v3 (F := Ideal) X1)
    (h6 : G (Proc.devRef .tc main_v6) = val_main_v6 (F := Ideal) X1)
    (h8 : G (Proc.devRef .tc main_v8) = val_main_v8 (F := Ideal) X2)
    (h17 : G (Proc.devRef .tc main_v17) = val_main_v17 (F := Ideal) X1 X2) :
    StableHlo.after hostOps0_2 G (Proc.devRef .tc main_v3) = val_main_v3 (F := Ideal) X1
    ∧ StableHlo.after hostOps0_2 G (Proc.devRef .tc main_v6) = val_main_v6 (F := Ideal) X1
    ∧ StableHlo.after hostOps0_2 G (Proc.devRef .tc main_v33) = val_main_v33 (F := Ideal) X1 X2 := by
  refine ⟨?_, ?_, ?_⟩
  · simp only [hostOps0_2]
    after_results_simp
    exact h3
  · simp only [hostOps0_2]
    after_results_simp
    exact h6
  · simp only [hostOps0_2]
    after_results_simp
    rw [h3, h6, h8, h17]
    rfl

end Stretches

/-! ## Before the first region: the edge endpoints with self loops, and the edge normalisation -/

/-- The three buffers when the first region is entered. -/
theorem entry :
    W3 m ρ c (Proc.devRef .tc main_v3) = val_main_v3 (F := Ideal) X1
    ∧ W3 m ρ c (Proc.devRef .tc main_v6) = val_main_v6 (F := Ideal) X1
    ∧ W3 m ρ c (Proc.devRef .tc main_v33) = val_main_v33 (F := Ideal) X1 X2 := by
  show StableHlo.after hostOps0_2 (StableHlo.after hostOps0_1 (StableHlo.after hostOps0 (W0 m ρ c))) (Proc.devRef .tc main_v3) = _
    ∧ StableHlo.after hostOps0_2 (StableHlo.after hostOps0_1 (StableHlo.after hostOps0 (W0 m ρ c))) (Proc.devRef .tc main_v6) = _
    ∧ StableHlo.after hostOps0_2 (StableHlo.after hostOps0_1 (StableHlo.after hostOps0 (W0 m ρ c))) (Proc.devRef .tc main_v33) = _
  rw [after_first]
  obtain ⟨a3, a6, a8⟩ := appended m ρ c
  obtain ⟨b3, b6, b8, b13, b16, bz⟩ := degree m c _ a3 a6 a8
  obtain ⟨c3, c6, c8, c17⟩ := factor m c _ _ _ _ b3 b6 b8 b13 b16 bz
  exact product m c _ c3 c6 c8 (c17.trans rfl)

/-- The source indices: the edge list's first row followed by 0, 1, …, n − 1. -/
theorem W3_v3 : W3 m ρ c (Proc.devRef .tc main_v3) = Cert.ReferenceIdeal.Read.val_main_v3 (F := Ideal) X1 :=
  (entry m ρ c).1

/-- The target indices: the edge list's second row followed by 0, 1, …, n − 1. -/
theorem W3_v6 : W3 m ρ c (Proc.devRef .tc main_v6) = Cert.ReferenceIdeal.Read.val_main_v6 (F := Ideal) X1 :=
  (entry m ρ c).2.1

/-- The edge normalisation: the weight of an edge (1 on a self loop) times the inverse square roots of the weighted
    degrees of its two endpoints (0 where the degree is not positive). -/
theorem W3_v33 : W3 m ρ c (Proc.devRef .tc main_v33) = Cert.ReferenceIdeal.Read.val_main_v33 (F := Ideal) X1 X2 :=
  (entry m ρ c).2.2

end Cert.Bridge.HostNorm

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.LibHostDot.lean ====
/-
  A plain rows-by-columns matrix product computed by the host, read at coordinates, over the extended reals.

  The left operand is contracted on its columns and the right on its rows, with no batch axis. At (p, q) the product
  is the sum over the shared axis of the products of row p of the left operand and column q of the right: nothing
  is rounded and no order of summation is left in it.
-/
import proofs.«151952_j29094108463582_1_alg».proof.Proof.LibPlainMatmul

noncomputable section

namespace Cert.LibHostDot

open Idealize.ShloMosaic Idealize.ShloMosaic.ValueIdx Cert.LibPlainMatmul
open scoped BigOperators

/-- A plain m × k by k × n host product reads, at (p, q), the sum over the shared axis of the products of row p of the
    left operand and column q of the right. -/
theorem dotGeneral_plain {m k n : Nat}
    (wf : DotDims.WF (⟨2, ![m, k]⟩ : Shape) ⟨2, ![k, n]⟩ ⟨2, ![m, n]⟩ [1] [0] [0] [1] [] [])
    {φ₁ φ₂ : FTy} (sched : HostSchedule) (l : FVec Ideal ⟨2, ![m, k]⟩ φ₁) (r : FVec Ideal ⟨2, ![k, n]⟩ φ₂)
    (p : Fin m) (q : Fin n) :
    FloatOps.dotGeneral (plainDims wf) none sched l r (ix2 p q) = ∑ c : Fin k, l (ix2 p c) * r (ix2 c q) := by
  rw [Ideal.dotGeneral_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end Cert.LibHostDot

end
-- ==== Proof.MatMul0.lean ====
/-
  The first matrix-product region: a [100000, 256] array times a [256, 128] array, computed in 20 row blocks of
  5000 rows. Each grid point multiplies its 5000 rows of the left operand by the whole right operand into the zero
  accumulator and writes the [5000, 128] block of the result back; the blocks tile the result's rows, so the result
  array after the region is the host's plain product of the two arrays the region found.

  * the block's product read at (p, q): the sum over the shared axis of row p of the left block times column q of
    the right block (nothing is rounded over the extended reals);
  * a block index of the left operand's window at point t is row 5000 t + p of the array, the right operand's
    window is the whole array at every point, the result's block at point t is rows 5000 t … 5000 t + 4999;
  * what point t writes back is therefore block t of the host's product, and the blocks cover every row.
-/
import proofs.«151952_j29094108463582_1_alg».proof.Proof.Gen.KernelIdeal.Frame
import proofs.«151952_j29094108463582_1_alg».proof.Proof.Gen.ReferenceIdeal.Read
import proofs.«151952_j29094108463582_1_alg».proof.Proof.LibHostDot
import Idealize.ShloMosaic.Lib.ValueIdx
import Idealize.ShloMosaic.Lib.Pipeline.Value
import Idealize.ShloMosaic.PureOps.Ideal.Laws

noncomputable section

namespace Cert.Bridge.MatMul0

open Idealize.ShloMosaic Idealize.ShloMosaic.TcCoe Idealize.SL.Sem Cert.KernelIdeal Cert.KernelIdeal.Gen
open Idealize.ShloMosaic.ValueIdx
open scoped BigOperators

/-! ## The block product at an index -/

/-- The zero offsets of a whole-block access. -/
theorem zero_off : (![0, 0] : Fin 2 → Nat) = fun _ => 0 := funext fun a => by fin_cases a <;> rfl

/-- The body's stored value at (p, q): row p of the left block against column q of the right block. -/
theorem block_product (x0 : Vec Ideal S5000x256 .f32) (x1 : Vec Ideal S256x128 .f32) (p : Fin 5000) (q : Fin 128) :
    k0_pay1 (F := Ideal) x0 x1 (ix2 p q) = ∑ k : Fin 256, x0 (ix2 p k) * x1 (ix2 k q) := by
  unfold k0_pay1
  refine (Cert.LibPlainMatmul.matmul_zero_plain _ _ _ p q).trans ?_
  rfl

/-! ## The host's product at an index -/

/-- The host's product of the two arrays. -/
abbrev hostProduct (l : (⟨Cert.ReferenceIdeal.S100000x256, .f32⟩ : BufTy).Contents (Elt Ideal))
    (r : (⟨Cert.ReferenceIdeal.S256x128, .f32⟩ : BufTy).Contents (Elt Ideal)) :
    (⟨Cert.ReferenceIdeal.S100000x128, .f32⟩ : BufTy).Contents (Elt Ideal) :=
  Host.dotGeneral (F := Ideal) (φ₁ := .f32) (φ₂ := .f32) Cert.ReferenceIdeal.dot_S100000x256_S256x128_S100000x128_1_0_0_1_n_n none l r

/-- The host's product at an index whose coordinates are (P, q): row P of the left array against column q of the right. -/
theorem hostProduct_apply (l : (⟨Cert.ReferenceIdeal.S100000x256, .f32⟩ : BufTy).Contents (Elt Ideal))
    (r : (⟨Cert.ReferenceIdeal.S256x128, .f32⟩ : BufTy).Contents (Elt Ideal))
    (i : S100000x128.Idx) (P : Fin 100000) (q : Fin 128) (h0 : (i 0).val = P.val) (h1 : (i 1).val = q.val) :
    hostProduct l r i = ∑ k : Fin 256, l (ix2 P k) * r (ix2 k q) := by
  have hi : i = ix2 P q := funext fun a => Fin.ext (by
    match a with
    | ⟨0, _⟩ => exact h0
    | ⟨1, _⟩ => exact h1)
  rw [hi]
  exact Cert.LibHostDot.dotGeneral_plain _ _ l r P q

/-! ## The windows' blocks in the arrays -/

section Region
variable (V : (c : Dev nD) → (b : Ref sig .tc) → Buf (Elt Ideal) ((c : Thread nD τ).loc b)) (c : Dev nD)

/-- The printed index maps over the grid: the left operand's and the result's windows move one block of rows per
    point and stay at column block 0; the right operand's window stays at block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t, at a block index, is the array at row 5000 t + the block row. -/
theorem lhs_block (t : Fin cfg0.N) (x : S5000x256.Idx) (i : S100000x256.Idx)
    (h0 : (i 0).val = t.val * 5000 + (x 0).val) (h1 : (i 1).val = (x 1).val) :
    (iblk0 V c 0 t : Vec Ideal S5000x256 .f32) x = (V c main_arg0 : S100000x256.Idx → Elt Ideal .f32) i := by
  obtain ⟨e0, e1, -, -, -, -⟩ := index_facts t
  unfold iblk0
  show V c main_arg0 (((cfg0.win 0).blk t).view.emb x) = V c main_arg0 i
  refine congrArg (V c main_arg0) ?_
  funext a
  apply Fin.ext
  match a with
  | ⟨0, _⟩ => show win0_0.index t (0 : Fin 2) * 5000 + 1 * (x 0).val = (i 0).val; rw [e0, h0]; omega
  | ⟨1, _⟩ => show win0_0.index t (1 : Fin 2) * 256 + 1 * (x 1).val = (i 1).val; rw [e1, h1]; omega

/-- The right operand's block at every point is the whole array. -/
theorem rhs_block (t : Fin cfg0.N) (x : S256x128.Idx) :
    (iblk0 V c 1 t : Vec Ideal S256x128 .f32) x = (V c main_arg9 : S256x128.Idx → Elt Ideal .f32) x := by
  obtain ⟨-, -, e2, e3, -, -⟩ := index_facts t
  unfold iblk0
  show V c main_arg9 (((cfg0.win 1).blk t).view.emb x) = V c main_arg9 x
  refine congrArg (V c main_arg9) ?_
  funext a
  apply Fin.ext
  match a with
  | ⟨0, _⟩ => show win0_1.index t (0 : Fin 2) * 256 + 1 * (x 0).val = (x 0).val; rw [e2]; omega
  | ⟨1, _⟩ => show win0_1.index t (1 : Fin 2) * 128 + 1 * (x 1).val = (x 1).val; rw [e3]; omega

/-! ## What each point writes back -/

/-- Point t writes back block t of the host's product of the two arrays the region finds. -/
theorem flushed_eq (l : (⟨Cert.ReferenceIdeal.S100000x256, .f32⟩ : BufTy).Contents (Elt Ideal))
    (r : (⟨Cert.ReferenceIdeal.S256x128, .f32⟩ : BufTy).Contents (Elt Ideal))
    (hl : V c main_arg0 = l) (hr : V c main_arg9 = r) (t : Fin cfg0.N) :
    (dat0 (F := Ideal) V c).flushed 2 t = ((cfg0.win 2).blk t).view.read (Elt Ideal) (hostProduct l r) := by
  show (cfg0.win 2).cut (grid0.coords t) ((dat0 V c).after 2 t) = _
  rw [after0_2]
  unfold out0_2
  rw [View.canon_unit_zero zero_off]
  simp only [View.ld_unit_zero (S := S5000x256) zero_off, View.ld_unit_zero (S := S256x128) zero_off]
  obtain ⟨-, -, -, -, e4, e5⟩ := index_facts t
  have ht : t.val < 20 := lt_of_lt_of_eq t.isLt N_0
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (ix2 p q)
    = hostProduct l r (((cfg0.win 2).blk t).view.emb (ix2 p q))
  refine (block_product _ _ p q).trans ?_
  have hP : t.val * 5000 + p.val < 100000 := by have := p.isLt; omega
  refine Eq.trans ?_ (hostProduct_apply l r _ ⟨t.val * 5000 + p.val, hP⟩ q ?_ ?_).symm
  · refine Finset.sum_congr rfl fun k _ => ?_
    rw [lhs_block V c t (ix2 p k) (ix2 ⟨t.val * 5000 + p.val, hP⟩ k) rfl rfl, rhs_block V c t (ix2 k q), hl, hr]
  · show win0_2.index t (0 : Fin 2) * 5000 + 1 * p.val = t.val * 5000 + p.val
    rw [e4]; omega
  · show win0_2.index t (1 : Fin 2) * 128 + 1 * q.val = q.val
    rw [e5]; omega

/-! ## The blocks cover the result -/

/-- An index of the result is in point t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v34).slice (win0_2.rect t)).set ↔ _
  rw [View.set_slice_whole, Rect.mem_set_unit]
  exact Iff.rfl

/-- Row r of the result is in the block of point r / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hlt : (i 0).val / 5000 < cfg0.N := lt_of_lt_of_eq (show (i 0).val / 5000 < 20 by omega) N_0.symm
  obtain ⟨-, -, -, -, e4, e5⟩ := index_facts ⟨(i 0).val / 5000, hlt⟩
  refine ⟨⟨(i 0).val / 5000, hlt⟩, flush0_2 _, ?_⟩
  rw [mem_block]
  intro a
  match a with
  | ⟨0, _⟩ =>
    show win0_2.index ⟨(i 0).val / 5000, hlt⟩ (0 : Fin 2) * 5000 ≤ (i 0).val ∧ (i 0).val < win0_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, hlt⟩ (1 : Fin 2) * 128 ≤ (i 1).val ∧ (i 1).val < win0_2.index ⟨(i 0).val / 5000, hlt⟩ (1 : Fin 2) * 128 + 128
    rw [e5]
    omega

/-! ## The result array after the region -/

/-- The result array when the region exits is the host's product of the two arrays the region found. -/
theorem final (l : (⟨Cert.ReferenceIdeal.S100000x256, .f32⟩ : BufTy).Contents (Elt Ideal))
    (r : (⟨Cert.ReferenceIdeal.S256x128, .f32⟩ : BufTy).Contents (Elt Ideal))
    (hl : V c main_arg0 = l) (hr : V c main_arg9 = r) :
    (dat0 (F := Ideal) V c).arrAt 2 cfg0.N
      = Host.dotGeneral (F := Ideal) (φ₁ := .f32) (φ₂ := .f32) Cert.ReferenceIdeal.dot_S100000x256_S256x128_S100000x128_1_0_0_1_n_n none l r :=
  (dat0 (F := Ideal) V c).arrAt_eq_of_cover 2 (hostProduct l r) (fun t _ => flushed_eq V c l r hl hr t) cover

end Region

end Cert.Bridge.MatMul0

end
-- ==== Proof.MatMul1.lean ====
/-
  The second matrix-product region: a [100000, 256] array times a [256, 128] array, computed in 20 row blocks of
  5000 rows. Each grid point multiplies its 5000 rows of the left operand by the whole right operand into the zero
  accumulator and writes the [5000, 128] block of the result back; the blocks tile the result's rows, so the result
  array after the region is the host's plain product of the two arrays the region found.

  * the block's product read at (p, q): the sum over the shared axis of row p of the left block times column q of
    the right block (nothing is rounded over the extended reals);
  * a block index of the left operand's window at point t is row 5000 t + p of the array, the right operand's
    window is the whole array at every point, the result's block at point t is rows 5000 t … 5000 t + 4999;
  * what point t writes back is therefore block t of the host's product, and the blocks cover every row.
-/
import proofs.«151952_j29094108463582_1_alg».proof.Proof.Gen.KernelIdeal.Frame
import proofs.«151952_j29094108463582_1_alg».proof.Proof.Gen.ReferenceIdeal.Read
import proofs.«151952_j29094108463582_1_alg».proof.Proof.LibHostDot
import Idealize.ShloMosaic.Lib.ValueIdx
import Idealize.ShloMosaic.Lib.Pipeline.Value
import Idealize.ShloMosaic.PureOps.Ideal.Laws

noncomputable section

namespace Cert.Bridge.MatMul1

open Idealize.ShloMosaic Idealize.ShloMosaic.TcCoe Idealize.SL.Sem Cert.KernelIdeal Cert.KernelIdeal.Gen
open Idealize.ShloMosaic.ValueIdx
open scoped BigOperators

/-! ## The block product at an index -/

/-- The zero offsets of a whole-block access. -/
theorem zero_off : (![0, 0] : Fin 2 → Nat) = fun _ => 0 := funext fun a => by fin_cases a <;> rfl

/-- The body's stored value at (p, q): row p of the left block against column q of the right block. -/
theorem block_product (x0 : Vec Ideal S5000x256 .f32) (x1 : Vec Ideal S256x128 .f32) (p : Fin 5000) (q : Fin 128) :
    k1_pay1 (F := Ideal) x0 x1 (ix2 p q) = ∑ k : Fin 256, x0 (ix2 p k) * x1 (ix2 k q) := by
  unfold k1_pay1
  refine (Cert.LibPlainMatmul.matmul_zero_plain _ _ _ p q).trans ?_
  rfl

/-! ## The host's product at an index -/

/-- The host's product of the two arrays. -/
abbrev hostProduct (l : (⟨Cert.ReferenceIdeal.S100000x256, .f32⟩ : BufTy).Contents (Elt Ideal))
    (r : (⟨Cert.ReferenceIdeal.S256x128, .f32⟩ : BufTy).Contents (Elt Ideal)) :
    (⟨Cert.ReferenceIdeal.S100000x128, .f32⟩ : BufTy).Contents (Elt Ideal) :=
  Host.dotGeneral (F := Ideal) (φ₁ := .f32) (φ₂ := .f32) Cert.ReferenceIdeal.dot_S100000x256_S256x128_S100000x128_1_0_0_1_n_n none l r

/-- The host's product at an index whose coordinates are (P, q): row P of the left array against column q of the right. -/
theorem hostProduct_apply (l : (⟨Cert.ReferenceIdeal.S100000x256, .f32⟩ : BufTy).Contents (Elt Ideal))
    (r : (⟨Cert.ReferenceIdeal.S256x128, .f32⟩ : BufTy).Contents (Elt Ideal))
    (i : S100000x128.Idx) (P : Fin 100000) (q : Fin 128) (h0 : (i 0).val = P.val) (h1 : (i 1).val = q.val) :
    hostProduct l r i = ∑ k : Fin 256, l (ix2 P k) * r (ix2 k q) := by
  have hi : i = ix2 P q := funext fun a => Fin.ext (by
    match a with
    | ⟨0, _⟩ => exact h0
    | ⟨1, _⟩ => exact h1)
  rw [hi]
  exact Cert.LibHostDot.dotGeneral_plain _ _ l r P q

/-! ## The windows' blocks in the arrays -/

section Region
variable (V : (c : Dev nD) → (b : Ref sig .tc) → Buf (Elt Ideal) ((c : Thread nD τ).loc b)) (c : Dev nD)

/-- The printed index maps over the grid: the left operand's and the result's windows move one block of rows per
    point and stay at column block 0; the right operand's window stays at block (0, 0). -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t, at a block index, is the array at row 5000 t + the block row. -/
theorem lhs_block (t : Fin cfg1.N) (x : S5000x256.Idx) (i : S100000x256.Idx)
    (h0 : (i 0).val = t.val * 5000 + (x 0).val) (h1 : (i 1).val = (x 1).val) :
    (iblk1 V c 0 t : Vec Ideal S5000x256 .f32) x = (V c main_arg0 : S100000x256.Idx → Elt Ideal .f32) i := by
  obtain ⟨e0, e1, -, -, -, -⟩ := index_facts t
  unfold iblk1
  show V c main_arg0 (((cfg1.win 0).blk t).view.emb x) = V c main_arg0 i
  refine congrArg (V c main_arg0) ?_
  funext a
  apply Fin.ext
  match a with
  | ⟨0, _⟩ => show win1_0.index t (0 : Fin 2) * 5000 + 1 * (x 0).val = (i 0).val; rw [e0, h0]; omega
  | ⟨1, _⟩ => show win1_0.index t (1 : Fin 2) * 256 + 1 * (x 1).val = (i 1).val; rw [e1, h1]; omega

/-- The right operand's block at every point is the whole array. -/
theorem rhs_block (t : Fin cfg1.N) (x : S256x128.Idx) :
    (iblk1 V c 1 t : Vec Ideal S256x128 .f32) x = (V c main_arg3 : S256x128.Idx → Elt Ideal .f32) x := by
  obtain ⟨-, -, e2, e3, -, -⟩ := index_facts t
  unfold iblk1
  show V c main_arg3 (((cfg1.win 1).blk t).view.emb x) = V c main_arg3 x
  refine congrArg (V c main_arg3) ?_
  funext a
  apply Fin.ext
  match a with
  | ⟨0, _⟩ => show win1_1.index t (0 : Fin 2) * 256 + 1 * (x 0).val = (x 0).val; rw [e2]; omega
  | ⟨1, _⟩ => show win1_1.index t (1 : Fin 2) * 128 + 1 * (x 1).val = (x 1).val; rw [e3]; omega

/-! ## What each point writes back -/

/-- Point t writes back block t of the host's product of the two arrays the region finds. -/
theorem flushed_eq (l : (⟨Cert.ReferenceIdeal.S100000x256, .f32⟩ : BufTy).Contents (Elt Ideal))
    (r : (⟨Cert.ReferenceIdeal.S256x128, .f32⟩ : BufTy).Contents (Elt Ideal))
    (hl : V c main_arg0 = l) (hr : V c main_arg3 = r) (t : Fin cfg1.N) :
    (dat1 (F := Ideal) V c).flushed 2 t = ((cfg1.win 2).blk t).view.read (Elt Ideal) (hostProduct l r) := by
  show (cfg1.win 2).cut (grid1.coords t) ((dat1 V c).after 2 t) = _
  rw [after1_2]
  unfold out1_2
  rw [View.canon_unit_zero zero_off]
  simp only [View.ld_unit_zero (S := S5000x256) zero_off, View.ld_unit_zero (S := S256x128) zero_off]
  obtain ⟨-, -, -, -, e4, e5⟩ := index_facts t
  have ht : t.val < 20 := lt_of_lt_of_eq t.isLt N_1
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (ix2 p q)
    = hostProduct l r (((cfg1.win 2).blk t).view.emb (ix2 p q))
  refine (block_product _ _ p q).trans ?_
  have hP : t.val * 5000 + p.val < 100000 := by have := p.isLt; omega
  refine Eq.trans ?_ (hostProduct_apply l r _ ⟨t.val * 5000 + p.val, hP⟩ q ?_ ?_).symm
  · refine Finset.sum_congr rfl fun k _ => ?_
    rw [lhs_block V c t (ix2 p k) (ix2 ⟨t.val * 5000 + p.val, hP⟩ k) rfl rfl, rhs_block V c t (ix2 k q), hl, hr]
  · show win1_2.index t (0 : Fin 2) * 5000 + 1 * p.val = t.val * 5000 + p.val
    rw [e4]; omega
  · show win1_2.index t (1 : Fin 2) * 128 + 1 * q.val = q.val
    rw [e5]; omega

/-! ## The blocks cover the result -/

/-- An index of the result is in point t's block iff each coordinate is in the block's range on its axis. -/
theorem mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v35).slice (win1_2.rect t)).set ↔ _
  rw [View.set_slice_whole, Rect.mem_set_unit]
  exact Iff.rfl

/-- Row r of the result is in the block of point r / 5000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hlt : (i 0).val / 5000 < cfg1.N := lt_of_lt_of_eq (show (i 0).val / 5000 < 20 by omega) N_1.symm
  obtain ⟨-, -, -, -, e4, e5⟩ := index_facts ⟨(i 0).val / 5000, hlt⟩
  refine ⟨⟨(i 0).val / 5000, hlt⟩, flush1_2 _, ?_⟩
  rw [mem_block]
  intro a
  match a with
  | ⟨0, _⟩ =>
    show win1_2.index ⟨(i 0).val / 5000, hlt⟩ (0 : Fin 2) * 5000 ≤ (i 0).val ∧ (i 0).val < win1_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win1_2.index ⟨(i 0).val / 5000, hlt⟩ (1 : Fin 2) * 128 ≤ (i 1).val ∧ (i 1).val < win1_2.index ⟨(i 0).val / 5000, hlt⟩ (1 : Fin 2) * 128 + 128
    rw [e5]
    omega

/-! ## The result array after the region -/

/-- The result array when the region exits is the host's product of the two arrays the region found. -/
theorem final (l : (⟨Cert.ReferenceIdeal.S100000x256, .f32⟩ : BufTy).Contents (Elt Ideal))
    (r : (⟨Cert.ReferenceIdeal.S256x128, .f32⟩ : BufTy).Contents (Elt Ideal))
    (hl : V c main_arg0 = l) (hr : V c main_arg3 = r) :
    (dat1 (F := Ideal) V c).arrAt 2 cfg1.N
      = Host.dotGeneral (F := Ideal) (φ₁ := .f32) (φ₂ := .f32) Cert.ReferenceIdeal.dot_S100000x256_S256x128_S100000x128_1_0_0_1_n_n none l r :=
  (dat1 (F := Ideal) V c).arrAt_eq_of_cover 2 (hostProduct l r) (fun t _ => flushed_eq V c l r hl hr t) cover

end Region

end Cert.Bridge.MatMul1

end
-- ==== Proof.MatMul3.lean ====
/-
  The third matrix-product region: a [100000, 128] array times a [128, 128] array, computed in 20 row blocks of
  5000 rows. Each grid point multiplies its 5000 rows of the left operand by the whole right operand into the zero
  accumulator and writes the [5000, 128] block of the result back; the blocks tile the result's rows, so the result
  array after the region is the host's plain product of the two arrays the region found.

  * the block's product read at (p, q): the sum over the shared axis of row p of the left block times column q of
    the right block (nothing is rounded over the extended reals);
  * a block index of the left operand's window at point t is row 5000 t + p of the array, the right operand's
    window is the whole array at every point, the result's block at point t is rows 5000 t … 5000 t + 4999;
  * what point t writes back is therefore block t of the host's product, and the blocks cover every row.
-/
import proofs.«151952_j29094108463582_1_alg».proof.Proof.Gen.KernelIdeal.Frame
import proofs.«151952_j29094108463582_1_alg».proof.Proof.Gen.ReferenceIdeal.Read
import proofs.«151952_j29094108463582_1_alg».proof.Proof.LibHostDot
import Idealize.ShloMosaic.Lib.ValueIdx
import Idealize.ShloMosaic.Lib.Pipeline.Value
import Idealize.ShloMosaic.PureOps.Ideal.Laws

noncomputable section

namespace Cert.Bridge.MatMul3

open Idealize.ShloMosaic Idealize.ShloMosaic.TcCoe Idealize.SL.Sem Cert.KernelIdeal Cert.KernelIdeal.Gen
open Idealize.ShloMosaic.ValueIdx
open scoped BigOperators

/-! ## The block product at an index -/

/-- The zero offsets of a whole-block access. -/
theorem zero_off : (![0, 0] : Fin 2 → Nat) = fun _ => 0 := funext fun a => by fin_cases a <;> rfl

/-- The body's stored value at (p, q): row p of the left block against column q of the right block. -/
theorem block_product (x0 : Vec Ideal S5000x128 .f32) (x1 : Vec Ideal S128x128 .f32) (p : Fin 5000) (q : Fin 128) :
    k3_pay1 (F := Ideal) x0 x1 (ix2 p q) = ∑ k : Fin 128, x0 (ix2 p k) * x1 (ix2 k q) := by
  unfold k3_pay1
  refine (Cert.LibPlainMatmul.matmul_zero_plain _ _ _ p q).trans ?_
  rw [shapeCast_self]
  rfl

/-! ## The host's product at an index -/

/-- The host's product of the two arrays. -/
abbrev hostProduct (l : (⟨Cert.ReferenceIdeal.S100000x128, .f32⟩ : BufTy).Contents (Elt Ideal))
    (r : (⟨Cert.ReferenceIdeal.S128x128, .f32⟩ : BufTy).Contents (Elt Ideal)) :
    (⟨Cert.ReferenceIdeal.S100000x128, .f32⟩ : BufTy).Contents (Elt Ideal) :=
  Host.dotGeneral (F := Ideal) (φ₁ := .f32) (φ₂ := .f32) Cert.ReferenceIdeal.dot_S100000x128_S128x128_S100000x128_1_0_0_1_n_n none l r

/-- The host's product at an index whose coordinates are (P, q): row P of the left array against column q of the right. -/
theorem hostProduct_apply (l : (⟨Cert.ReferenceIdeal.S100000x128, .f32⟩ : BufTy).Contents (Elt Ideal))
    (r : (⟨Cert.ReferenceIdeal.S128x128, .f32⟩ : BufTy).Contents (Elt Ideal))
    (i : S100000x128.Idx) (P : Fin 100000) (q : Fin 128) (h0 : (i 0).val = P.val) (h1 : (i 1).val = q.val) :
    hostProduct l r i = ∑ k : Fin 128, l (ix2 P k) * r (ix2 k q) := by
  have hi : i = ix2 P q := funext fun a => Fin.ext (by
    match a with
    | ⟨0, _⟩ => exact h0
    | ⟨1, _⟩ => exact h1)
  rw [hi]
  exact Cert.LibHostDot.dotGeneral_plain _ _ l r P q

/-! ## The windows' blocks in the arrays -/

section Region
variable (V : (c : Dev nD) → (b : Ref sig .tc) → Buf (Elt Ideal) ((c : Thread nD τ).loc b)) (c : Dev nD)

/-- The printed index maps over the grid: the left operand's and the result's windows move one block of rows per
    point and stay at column block 0; the right operand's window stays at block (0, 0). -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The left operand's block at point t, at a block index, is the array at row 5000 t + the block row. -/
theorem lhs_block (t : Fin cfg3.N) (x : S5000x128.Idx) (i : S100000x128.Idx)
    (h0 : (i 0).val = t.val * 5000 + (x 0).val) (h1 : (i 1).val = (x 1).val) :
    (iblk3 V c 0 t : Vec Ideal S5000x128 .f32) x = (V c main_v49 : S100000x128.Idx → Elt Ideal .f32) i := by
  obtain ⟨e0, e1, -, -, -, -⟩ := index_facts t
  unfold iblk3
  show V c main_v49 (((cfg3.win 0).blk t).view.emb x) = V c main_v49 i
  refine congrArg (V c main_v49) ?_
  funext a
  apply Fin.ext
  match a with
  | ⟨0, _⟩ => show win3_0.index t (0 : Fin 2) * 5000 + 1 * (x 0).val = (i 0).val; rw [e0, h0]; omega
  | ⟨1, _⟩ => show win3_0.index t (1 : Fin 2) * 128 + 1 * (x 1).val = (i 1).val; rw [e1, h1]; omega

/-- The right operand's block at every point is the whole array. -/
theorem rhs_block (t : Fin cfg3.N) (x : S128x128.Idx) :
    (iblk3 V c 1 t : Vec Ideal S128x128 .f32) x = (V c main_arg5 : S128x128.Idx → Elt Ideal .f32) x := by
  obtain ⟨-, -, e2, e3, -, -⟩ := index_facts t
  unfold iblk3
  show V c main_arg5 (((cfg3.win 1).blk t).view.emb x) = V c main_arg5 x
  refine congrArg (V c main_arg5) ?_
  funext a
  apply Fin.ext
  match a with
  | ⟨0, _⟩ => show win3_1.index t (0 : Fin 2) * 128 + 1 * (x 0).val = (x 0).val; rw [e2]; omega
  | ⟨1, _⟩ => show win3_1.index t (1 : Fin 2) * 128 + 1 * (x 1).val = (x 1).val; rw [e3]; omega

/-! ## What each point writes back -/

/-- Point t writes back block t of the host's product of the two arrays the region finds. -/
theorem flushed_eq (l : (⟨Cert.ReferenceIdeal.S100000x128, .f32⟩ : BufTy).Contents (Elt Ideal))
    (r : (⟨Cert.ReferenceIdeal.S128x128, .f32⟩ : BufTy).Contents (Elt Ideal))
    (hl : V c main_v49 = l) (hr : V c main_arg5 = r) (t : Fin cfg3.N) :
    (dat3 (F := Ideal) V c).flushed 2 t = ((cfg3.win 2).blk t).view.read (Elt Ideal) (hostProduct l r) := by
  show (cfg3.win 2).cut (grid3.coords t) ((dat3 V c).after 2 t) = _
  rw [after3_2]
  unfold out3_2
  rw [View.canon_unit_zero zero_off]
  simp only [View.ld_unit_zero (S := S5000x128) zero_off, View.ld_unit_zero (S := S128x128) zero_off]
  obtain ⟨-, -, -, -, e4, e5⟩ := index_facts t
  have ht : t.val < 20 := lt_of_lt_of_eq t.isLt N_3
  funext j
  obtain ⟨p, q, rfl⟩ : ∃ (p : Fin 5000) (q : Fin 128), j = ix2 p q := ⟨j 0, j 1, eq_ix2 j⟩
  show k3_pay1 (F := Ideal) (iblk3 V c 0 t) (iblk3 V c 1 t) (ix2 p q)
    = hostProduct l r (((cfg3.win 2).blk t).view.emb (ix2 p q))
  refine (block_product _ _ p q).trans ?_
  have hP : t.val * 5000 + p.val < 100000 := by have := p.isLt; omega
  refine Eq.trans ?_ (hostProduct_apply l r _ ⟨t.val * 5000 + p.val, hP⟩ q ?_ ?_).symm
  · refine Finset.sum_congr rfl fun k _ => ?_
    rw [lhs_block V c t (ix2 p k) (ix2 ⟨t.val * 5000 + p.val, hP⟩ k) rfl rfl, rhs_block V c t (ix2 k q), hl, hr]
  · show win3_2.index t (0 : Fin 2) * 5000 + 1 * p.val = t.val * 5000 + p.val
    rw [e4]; omega
  · show win3_2.index t (1 : Fin 2) * 128 + 1 * q.val = q.val
    rw [e5]; omega

/-! ## The blocks cover the result -/

/-- An index of the result is in point t's block iff each coordinate is in the block's range on its axis. -/
theorem mem_block (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v50).slice (win3_2.rect t)).set ↔ _
  rw [View.set_slice_whole, Rect.mem_set_unit]
  exact Iff.rfl

/-- Row r of the result is in the block of point r / 5000. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hlt : (i 0).val / 5000 < cfg3.N := lt_of_lt_of_eq (show (i 0).val / 5000 < 20 by omega) N_3.symm
  obtain ⟨-, -, -, -, e4, e5⟩ := index_facts ⟨(i 0).val / 5000, hlt⟩
  refine ⟨⟨(i 0).val / 5000, hlt⟩, flush3_2 _, ?_⟩
  rw [mem_block]
  intro a
  match a with
  | ⟨0, _⟩ =>
    show win3_2.index ⟨(i 0).val / 5000, hlt⟩ (0 : Fin 2) * 5000 ≤ (i 0).val ∧ (i 0).val < win3_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win3_2.index ⟨(i 0).val / 5000, hlt⟩ (1 : Fin 2) * 128 ≤ (i 1).val ∧ (i 1).val < win3_2.index ⟨(i 0).val / 5000, hlt⟩ (1 : Fin 2) * 128 + 128
    rw [e5]
    omega

/-! ## The result array after the region -/

/-- The result array when the region exits is the host's product of the two arrays the region found. -/
theorem final (l : (⟨Cert.ReferenceIdeal.S100000x128, .f32⟩ : BufTy).Contents (Elt Ideal))
    (r : (⟨Cert.ReferenceIdeal.S128x128, .f32⟩ : BufTy).Contents (Elt Ideal))
    (hl : V c main_v49 = l) (hr : V c main_arg5 = r) :
    (dat3 (F := Ideal) V c).arrAt 2 cfg3.N
      = Host.dotGeneral (F := Ideal) (φ₁ := .f32) (φ₂ := .f32) Cert.ReferenceIdeal.dot_S100000x128_S128x128_S100000x128_1_0_0_1_n_n none l r :=
  (dat3 (F := Ideal) V c).arrAt_eq_of_cover 2 (hostProduct l r) (fun t _ => flushed_eq V c l r hl hr t) cover

end Region

end Cert.Bridge.MatMul3

end
-- ==== Proof.MatMul5.lean ====
/-
  The fourth matrix-product region: a [100000, 128] array times a [128, 1] column, computed in 20 row blocks of
  5000 rows. Each grid point multiplies its 5000 rows of the left operand by the whole right operand into the zero
  accumulator and writes the [5000, 1] block of the result back; the blocks tile the result's rows, so the result
  array after the region is the host's plain product of the two arrays the region found.

  * the block's product read at (p, q): the sum over the shared axis of row p of the left block times column q of
    the right block (nothing is rounded over the extended reals);
  * a block index of the left operand's window at point t is row 5000 t + p of the array, the right operand's
    window is the whole array at every point, the result's block at point t is rows 5000 t … 5000 t + 4999;
  * what point t writes back is therefore block t of the host's product, and the blocks cover every row.
-/
import proofs.«151952_j29094108463582_1_alg».proof.Proof.Gen.KernelIdeal.Frame
import proofs.«151952_j29094108463582_1_alg».proof.Proof.Gen.ReferenceIdeal.Read
import proofs.«151952_j29094108463582_1_alg».proof.Proof.LibHostDot
import Idealize.ShloMosaic.Lib.ValueIdx
import Idealize.ShloMosaic.Lib.Pipeline.Value
import Idealize.ShloMosaic.PureOps.Ideal.Laws

noncomputable section

namespace Cert.Bridge.MatMul5

open Idealize.ShloMosaic Idealize.ShloMosaic.TcCoe Idealize.SL.Sem Cert.KernelIdeal Cert.KernelIdeal.Gen
open Idealize.ShloMosaic.ValueIdx
open scoped BigOperators

/-! ## The block product at an index -/

/-- The zero offsets of a whole-block access. -/
theorem zero_off : (![0, 0] : Fin 2 → Nat) = fun _ => 0 := funext fun a => by fin_cases a <;> rfl

/-- The body's stored value at (p, q): row p of the left block against column q of the right block. -/
theorem block_product (x0 : Vec Ideal S5000x128 .f32) (x1 : Vec Ideal S128x1 .f32) (p : Fin 5000) (q : Fin 1) :
    k5_pay1 (F := Ideal) x0 x1 (ix2 p q) = ∑ k : Fin 128, x0 (ix2 p k) * x1 (ix2 k q) := by
  unfold k5_pay1
  refine (Cert.LibPlainMatmul.matmul_zero_plain _ _ _ p q).trans ?_
  rw [shapeCast_self]
  rfl

/-! ## The host's product at an index -/

/-- The host's product of the two arrays. -/
abbrev hostProduct (l : (⟨Cert.ReferenceIdeal.S100000x128, .f32⟩ : BufTy).Contents (Elt Ideal))
    (r : (⟨Cert.ReferenceIdeal.S128x1, .f32⟩ : BufTy).Contents (Elt Ideal)) :
    (⟨Cert.ReferenceIdeal.S100000x1, .f32⟩ : BufTy).Contents (Elt Ideal) :=
  Host.dotGeneral (F := Ideal) (φ₁ := .f32) (φ₂ := .f32) Cert.ReferenceIdeal.dot_S100000x128_S128x1_S100000x1_1_0_0_1_n_n none l r

/-- The host's product at an index whose coordinates are (P, q): row P of the left array against column q of the right. -/
theorem hostProduct_apply (l : (⟨Cert.ReferenceIdeal.S100000x128, .f32⟩ : BufTy).Contents (Elt Ideal))
    (r : (⟨Cert.ReferenceIdeal.S128x1, .f32⟩ : BufTy).Contents (Elt Ideal))
    (i : S100000x1.Idx) (P : Fin 100000) (q : Fin 1) (h0 : (i 0).val = P.val) (h1 : (i 1).val = q.val) :
    hostProduct l r i = ∑ k : Fin 128, l (ix2 P k) * r (ix2 k q) := by
  have hi : i = ix2 P q := funext fun a => Fin.ext (by
    match a with
    | ⟨0, _⟩ => exact h0
    | ⟨1, _⟩ => exact h1)
  rw [hi]
  exact Cert.LibHostDot.dotGeneral_plain _ _ l r P q

/-! ## The windows' blocks in the arrays -/

section Region
variable (V : (c : Dev nD) → (b : Ref sig .tc) → Buf (Elt Ideal) ((c : Thread nD τ).loc b)) (c : Dev nD)

/-- The printed index maps over the grid: the left operand's and the result's windows move one block of rows per
    point and stay at column block 0; the right operand's window stays at block (0, 0). -/
theorem index_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The left operand's block at point t, at a block index, is the array at row 5000 t + the block row. -/
theorem lhs_block (t : Fin cfg5.N) (x : S5000x128.Idx) (i : S100000x128.Idx)
    (h0 : (i 0).val = t.val * 5000 + (x 0).val) (h1 : (i 1).val = (x 1).val) :
    (iblk5 V c 0 t : Vec Ideal S5000x128 .f32) x = (V c main_v64 : S100000x128.Idx → Elt Ideal .f32) i := by
  obtain ⟨e0, e1, -, -, -, -⟩ := index_facts t
  unfold iblk5
  show V c main_v64 (((cfg5.win 0).blk t).view.emb x) = V c main_v64 i
  refine congrArg (V c main_v64) ?_
  funext a
  apply Fin.ext
  match a with
  | ⟨0, _⟩ => show win5_0.index t (0 : Fin 2) * 5000 + 1 * (x 0).val = (i 0).val; rw [e0, h0]; omega
  | ⟨1, _⟩ => show win5_0.index t (1 : Fin 2) * 128 + 1 * (x 1).val = (i 1).val; rw [e1, h1]; omega

/-- The right operand's block at every point is the whole array. -/
theorem rhs_block (t : Fin cfg5.N) (x : S128x1.Idx) :
    (iblk5 V c 1 t : Vec Ideal S128x1 .f32) x = (V c main_arg7 : S128x1.Idx → Elt Ideal .f32) x := by
  obtain ⟨-, -, e2, e3, -, -⟩ := index_facts t
  unfold iblk5
  show V c main_arg7 (((cfg5.win 1).blk t).view.emb x) = V c main_arg7 x
  refine congrArg (V c main_arg7) ?_
  funext a
  apply Fin.ext
  match a with
  | ⟨0, _⟩ => show win5_1.index t (0 : Fin 2) * 128 + 1 * (x 0).val = (x 0).val; rw [e2]; omega
  | ⟨1, _⟩ => show win5_1.index t (1 : Fin 2) * 1 + 1 * (x 1).val = (x 1).val; rw [e3]; omega

/-! ## What each point writes back -/

/-- Point t writes back block t of the host's product of the two arrays the region finds. -/
theorem flushed_eq (l : (⟨Cert.ReferenceIdeal.S100000x128, .f32⟩ : BufTy).Contents (Elt Ideal))
    (r : (⟨Cert.ReferenceIdeal.S128x1, .f32⟩ : BufTy).Contents (Elt Ideal))
    (hl : V c main_v64 = l) (hr : V c main_arg7 = r) (t : Fin cfg5.N) :
    (dat5 (F := Ideal) V c).flushed 2 t = ((cfg5.win 2).blk t).view.read (Elt Ideal) (hostProduct l r) := by
  show (cfg5.win 2).cut (grid5.coords t) ((dat5 V c).after 2 t) = _
  rw [after5_2]
  unfold out5_2
  rw [View.canon_unit_zero zero_off]
  simp only [View.ld_unit_zero (S := S5000x128) zero_off, View.ld_unit_zero (S := S128x1) zero_off]
  obtain ⟨-, -, -, -, e4, e5⟩ := index_facts t
  have ht : t.val < 20 := lt_of_lt_of_eq t.isLt N_5
  funext j
  obtain ⟨p, q, rfl⟩ : ∃ (p : Fin 5000) (q : Fin 1), j = ix2 p q := ⟨j 0, j 1, eq_ix2 j⟩
  show k5_pay1 (F := Ideal) (iblk5 V c 0 t) (iblk5 V c 1 t) (ix2 p q)
    = hostProduct l r (((cfg5.win 2).blk t).view.emb (ix2 p q))
  refine (block_product _ _ p q).trans ?_
  have hP : t.val * 5000 + p.val < 100000 := by have := p.isLt; omega
  refine Eq.trans ?_ (hostProduct_apply l r _ ⟨t.val * 5000 + p.val, hP⟩ q ?_ ?_).symm
  · refine Finset.sum_congr rfl fun k _ => ?_
    rw [lhs_block V c t (ix2 p k) (ix2 ⟨t.val * 5000 + p.val, hP⟩ k) rfl rfl, rhs_block V c t (ix2 k q), hl, hr]
  · show win5_2.index t (0 : Fin 2) * 5000 + 1 * p.val = t.val * 5000 + p.val
    rw [e4]; omega
  · show win5_2.index t (1 : Fin 2) * 1 + 1 * q.val = q.val
    rw [e5]; omega

/-! ## The blocks cover the result -/

/-- An index of the result is in point t's block iff each coordinate is in the block's range on its axis. -/
theorem mem_block (t : Fin cfg5.N) (i : S100000x1.Idx) :
    i ∈ ((cfg5.win 2).blk t).view.set ↔ ∀ a : Fin 2, win5_2.index t a * S5000x1.size a ≤ (i a).val ∧ (i a).val < win5_2.index t a * S5000x1.size a + S5000x1.size a := by
  show i ∈ ((View.whole main_v65).slice (win5_2.rect t)).set ↔ _
  rw [View.set_slice_whole, Rect.mem_set_unit]
  exact Iff.rfl

/-- Row r of the result is in the block of point r / 5000. -/
theorem cover (i : S100000x1.Idx) :
    ∃ t : Fin cfg5.N, (cfg5.win 2).flush t = true ∧ i ∈ ((cfg5.win 2).blk t).view.set := by
  have hi0 : (i 0).val < 100000 := (i 0).isLt
  have hi1 : (i 1).val < 1 := (i 1).isLt
  have hlt : (i 0).val / 5000 < cfg5.N := lt_of_lt_of_eq (show (i 0).val / 5000 < 20 by omega) N_5.symm
  obtain ⟨-, -, -, -, e4, e5⟩ := index_facts ⟨(i 0).val / 5000, hlt⟩
  refine ⟨⟨(i 0).val / 5000, hlt⟩, flush5_2 _, ?_⟩
  rw [mem_block]
  intro a
  match a with
  | ⟨0, _⟩ =>
    show win5_2.index ⟨(i 0).val / 5000, hlt⟩ (0 : Fin 2) * 5000 ≤ (i 0).val ∧ (i 0).val < win5_2.index ⟨(i 0).val / 5000, hlt⟩ (0 : Fin 2) * 5000 + 5000
    rw [e4]
    show (i 0).val / 5000 * 5000 ≤ (i 0).val ∧ (i 0).val < (i 0).val / 5000 * 5000 + 5000
    omega
  | ⟨1, _⟩ =>
    show win5_2.index ⟨(i 0).val / 5000, hlt⟩ (1 : Fin 2) * 1 ≤ (i 1).val ∧ (i 1).val < win5_2.index ⟨(i 0).val / 5000, hlt⟩ (1 : Fin 2) * 1 + 1
    rw [e5]
    omega

/-! ## The result array after the region -/

/-- The result array when the region exits is the host's product of the two arrays the region found. -/
theorem final (l : (⟨Cert.ReferenceIdeal.S100000x128, .f32⟩ : BufTy).Contents (Elt Ideal))
    (r : (⟨Cert.ReferenceIdeal.S128x1, .f32⟩ : BufTy).Contents (Elt Ideal))
    (hl : V c main_v64 = l) (hr : V c main_arg7 = r) :
    (dat5 (F := Ideal) V c).arrAt 2 cfg5.N
      = Host.dotGeneral (F := Ideal) (φ₁ := .f32) (φ₂ := .f32) Cert.ReferenceIdeal.dot_S100000x128_S128x1_S100000x1_1_0_0_1_n_n none l r :=
  (dat5 (F := Ideal) V c).arrAt_eq_of_cover 2 (hostProduct l r) (fun t _ => flushed_eq V c l r hl hr t) cover

end Region

end Cert.Bridge.MatMul5

end
-- ==== Proof.BatchNormCommon.lean ====
import proofs.«151952_j29094108463582_1_alg».proof.Proof.Gen.KernelIdeal.Skeleton
import Idealize.ShloMosaic.Lib.ValueIdx
import Idealize.ShloMosaic.Lib.ValueLayout
import Idealize.ShloMosaic.PureOps.Ideal.Laws

/-! # The batch-norm + ReLU bodies at one element

Both pointwise bodies compute, at row `p` and column `q` of a [5000, 128] block,
`max (((pre − mean q) · rsqrt (var q + ε)) · gamma q + beta q) 0`, where `pre` is the block's element plus the bias at
column `q` (and, in the residual body, plus the residual block's element). Each [128] parameter vector reaches the block
shape as one row ([128] → [1, 128]) repeated over the 5000 rows, so at `(p, q)` it reads the vector at `q`. -/

noncomputable section

namespace Cert.Bridge.BatchNormCommon

open Idealize.ShloMosaic Idealize.ShloMosaic.TcCoe Idealize.SL.Sem Cert.KernelIdeal Cert.KernelIdeal.Gen
open Idealize.ShloMosaic.ValueIdx

/-- A [128] vector viewed as one row and repeated over 5000 rows reads, at `(p, q)`, the vector at `q`. -/
theorem row_apply {α : Type} (v : S128.Idx → α) (p : Fin 5000) (q : Fin 128) :
    broadcastTo S5000x128 (shapeCast S1x128 v shapeCasts_S128_S1x128) broadcasts_S1x128_S5000x128 (ix2 p q) = v (ix1 q) :=
  (broadcastTo_1b_ab_apply (shapeCast S1x128 v shapeCasts_S128_S1x128) broadcasts_S1x128_S5000x128 p q).trans
    (shapeCast_a_1a_apply v shapeCasts_S128_S1x128 (0 : Fin 1) q)

/-- The normalisation of one element `pre` by the column's statistics and affine parameters, then the ReLU. -/
def bnRelu (pre mean var gamma beta : EReal) : EReal :=
  max ((pre - mean) * Ideal.rsqrt (var + Ideal.ofBits .f32 0x3727C5AC#32) * gamma + beta) (Ideal.ofBits .f32 0x00000000#32)

/-- The body without residual at `(p, q)`: the block's element plus the bias, normalised. -/
theorem pay2_apply (h : Vec Ideal S5000x128 .f32) (b mean var gamma beta : Vec Ideal S128 .f32) (p : Fin 5000) (q : Fin 128) :
    k2_pay1 (F := Ideal) h b mean var gamma beta (ix2 p q)
      = bnRelu (h (ix2 p q) + b (ix1 q)) (mean (ix1 q)) (var (ix1 q)) (gamma (ix1 q)) (beta (ix1 q)) := by
  unfold k2_pay1 bnRelu
  simp only [maximumf_apply, addf_apply, mulf_apply, subf_apply, broadcast_apply, row_apply, shapeCast_self]
  rfl

/-- The body with residual at `(p, q)`: the block's element plus the bias plus the residual's element, normalised. -/
theorem pay4_apply (h : Vec Ideal S5000x128 .f32) (b : Vec Ideal S128 .f32) (res : Vec Ideal S5000x128 .f32)
    (mean var gamma beta : Vec Ideal S128 .f32) (p : Fin 5000) (q : Fin 128) :
    k4_pay1 (F := Ideal) h b res mean var gamma beta (ix2 p q)
      = bnRelu (h (ix2 p q) + b (ix1 q) + res (ix2 p q)) (mean (ix1 q)) (var (ix1 q)) (gamma (ix1 q)) (beta (ix1 q)) := by
  unfold k4_pay1 bnRelu
  simp only [maximumf_apply, addf_apply, mulf_apply, subf_apply, broadcast_apply, row_apply, shapeCast_self]
  rfl

end Cert.Bridge.BatchNormCommon

end
-- ==== Proof.BatchNorm2.lean ====
import proofs.«151952_j29094108463582_1_alg».proof.Proof.Gen.KernelIdeal.Frame
import proofs.«151952_j29094108463582_1_alg».proof.Proof.Gen.ReferenceIdeal.Read
import proofs.«151952_j29094108463582_1_alg».proof.Proof.BatchNormCommon
import Idealize.ShloMosaic.Lib.ValueIdx
import Idealize.ShloMosaic.Lib.ValueLayout
import Idealize.ShloMosaic.Lib.Pipeline.Value
import Idealize.ShloMosaic.PureOps.Ideal.Laws

/-! # The first batch-norm + ReLU region against the reference's layer-1 normalisation

The region walks the [100000, 128] array in 20 blocks of 5000 rows; block `t` is rows `5000 t … 5000 t + 4999`, and every
[128] parameter window is the whole vector at every point. At row `p` of block `t` and column `q` the body leaves
`bnRelu (h + bias q) (mean q) (var q) (gamma q) (beta q)` with `h` the aggregated layer-1 array at row `5000 t + p`; the
reference's chain of broadcasts and pointwise operations reads the same expression at that row and column. The blocks
tile the array (row `r` is in block `r / 5000`), so the array the region leaves is the reference's stage. -/

noncomputable section

namespace Cert.Bridge.BatchNorm2

open Idealize.ShloMosaic Idealize.ShloMosaic.TcCoe Idealize.SL.Sem Cert.KernelIdeal Cert.KernelIdeal.Gen
open Idealize.ShloMosaic.ValueIdx Cert.Bridge.BatchNormCommon

/-! ## The reference's stage at a row and a column -/

/-- The reference's normalised, rectified layer-1 array at `(r, q)`: each parameter vector is read at column `q`
    through its two broadcasts, ε and the zero of the ReLU are splats. -/
theorem ref_apply (x0 : (⟨Cert.ReferenceIdeal.S100000x256, .f32⟩ : BufTy).Contents (Elt Ideal))
    (x1 : (⟨Cert.ReferenceIdeal.S2x1600000, .i32⟩ : BufTy).Contents (Elt Ideal))
    (x2 : (⟨Cert.ReferenceIdeal.S1600000, .f32⟩ : BufTy).Contents (Elt Ideal))
    (x3 : (⟨Cert.ReferenceIdeal.S256x128, .f32⟩ : BufTy).Contents (Elt Ideal))
    (x4 x10 x11 x12 x13 : (⟨Cert.ReferenceIdeal.S128, .f32⟩ : BufTy).Contents (Elt Ideal)) (r : Fin 100000) (q : Fin 128) :
    Cert.ReferenceIdeal.Read.val_main_v67 (F := Ideal) x0 x1 x2 x3 x4 x10 x11 x12 x13 (ix2 r q)
      = bnRelu (Cert.ReferenceIdeal.Read.val_main_v48 (F := Ideal) x0 x1 x2 x3 (ix2 r q) + x4 (ix1 q))
          (x12 (ix1 q)) (x13 (ix1 q)) (x10 (ix1 q)) (x11 (ix1 q)) := by
  have i4 : Cert.ReferenceIdeal.Read.idx_main_v49 (Cert.ReferenceIdeal.Read.idx_main_v50 (ix2 r q)) = ix1 q :=
    funext fun a => by match a with | ⟨0, _⟩ => rfl
  have i12 : Cert.ReferenceIdeal.Read.idx_main_v52 (Cert.ReferenceIdeal.Read.idx_main_v53 (ix2 r q)) = ix1 q :=
    funext fun a => by match a with | ⟨0, _⟩ => rfl
  have i13 : Cert.ReferenceIdeal.Read.idx_main_v58 (Cert.ReferenceIdeal.Read.idx_main_v59 (ix2 r q)) = ix1 q :=
    funext fun a => by match a with | ⟨0, _⟩ => rfl
  have i10 : Cert.ReferenceIdeal.Read.idx_main_v61 (Cert.ReferenceIdeal.Read.idx_main_v62 (ix2 r q)) = ix1 q :=
    funext fun a => by match a with | ⟨0, _⟩ => rfl
  have i11 : Cert.ReferenceIdeal.Read.idx_main_v64 (Cert.ReferenceIdeal.Read.idx_main_v65 (ix2 r q)) = ix1 q :=
    funext fun a => by match a with | ⟨0, _⟩ => rfl
  rw [Cert.ReferenceIdeal.Read.val_main_v67_apply, Cert.ReferenceIdeal.Read.val_main_call1_v0_apply,
    Cert.ReferenceIdeal.Read.val_main_call1_cst_apply, Cert.ReferenceIdeal.Read.val_main_v66_apply,
    Cert.ReferenceIdeal.Read.val_main_v65_apply, Cert.ReferenceIdeal.Read.val_main_v64_apply,
    Cert.ReferenceIdeal.Read.val_main_v63_apply, Cert.ReferenceIdeal.Read.val_main_v62_apply,
    Cert.ReferenceIdeal.Read.val_main_v61_apply, Cert.ReferenceIdeal.Read.val_main_v60_apply,
    Cert.ReferenceIdeal.Read.val_main_v59_apply, Cert.ReferenceIdeal.Read.val_main_v58_apply,
    Cert.ReferenceIdeal.Read.val_main_v57_apply, Cert.ReferenceIdeal.Read.val_main_v56_apply,
    Cert.ReferenceIdeal.Read.val_main_v55_apply, Cert.ReferenceIdeal.Read.val_main_cst_10_apply,
    Cert.ReferenceIdeal.Read.val_main_v54_apply, Cert.ReferenceIdeal.Read.val_main_v53_apply,
    Cert.ReferenceIdeal.Read.val_main_v52_apply, Cert.ReferenceIdeal.Read.val_main_v51_apply,
    Cert.ReferenceIdeal.Read.val_main_v50_apply, Cert.ReferenceIdeal.Read.val_main_v49_apply,
    i4, i12, i13, i10, i11]
  rfl

/-! ## The region's blocks as rows of its arrays -/

/-- The grid has 20 points. -/
theorem point_lt (t : Fin cfg2.N) : t.val < 20 := Nat.lt_of_lt_of_eq t.isLt N_2

/-- Row `p` of block `t` is row `5000 t + p` of the array. -/
def row (t : Fin cfg2.N) (p : Fin 5000) : Fin 100000 :=
  ⟨t.val * 5000 + p.val, by have := point_lt t; have := p.isLt; omega⟩

theorem hz : (![0, 0] : Fin 2 → Nat) = fun _ => 0 := funext fun a => by fin_cases a <;> rfl
theorem hz1 : (![0] : Fin 1 → Nat) = fun _ => 0 := funext fun a => by fin_cases a; rfl

/-- The printed index maps, decided over the grid: the row-blocked windows sit at block `t` of the rows and block 0 of the
    columns, the parameter windows at block 0. -/
theorem idx_facts : ∀ t : Fin cfg2.N, win2_0.index t (0 : Fin 2) = t.val ∧ win2_0.index t (1 : Fin 2) = 0
    ∧ win2_1.index t (0 : Fin 1) = 0 ∧ win2_2.index t (0 : Fin 1) = 0 ∧ win2_3.index t (0 : Fin 1) = 0
    ∧ win2_4.index t (0 : Fin 1) = 0 ∧ win2_5.index t (0 : Fin 1) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b)) (c : Dev nD)

/-- The input block at point `t` is rows `5000 t …` of the aggregated array as the region finds it. -/
theorem blk_h (t : Fin cfg2.N) (p : Fin 5000) (q : Fin 128) :
    iblk2 (F := Ideal) V c 0 t (ix2 p q) = (V c main_v48 : S100000x128.Idx → EReal) (ix2 (row t p) q) := by
  obtain ⟨e0, e1, -⟩ := idx_facts t
  unfold iblk2
  rw [View.read_apply]
  show V c main_v48 (((cfg2.win 0).blk t).view.emb (ix2 p q)) = V c main_v48 (ix2 (row t p) q)
  refine congrArg (V c main_v48) (funext fun a => Fin.ext ?_)
  match a with
  | ⟨0, _⟩ => show win2_0.index t (0 : Fin 2) * 5000 + 1 * p.val = t.val * 5000 + p.val; rw [e0]; omega
  | ⟨1, _⟩ => show win2_0.index t (1 : Fin 2) * 128 + 1 * q.val = q.val; rw [e1]; omega

/-- Each parameter window's block is its whole vector at every point. -/
theorem blk_bias (t : Fin cfg2.N) (q : Fin 128) :
    iblk2 (F := Ideal) V c 1 t (ix1 q) = (V c main_arg4 : S128.Idx → EReal) (ix1 q) := by
  obtain ⟨-, -, e, -⟩ := idx_facts t
  unfold iblk2
  rw [View.read_apply]
  show V c main_arg4 (((cfg2.win 1).blk t).view.emb (ix1 q)) = V c main_arg4 (ix1 q)
  refine congrArg (V c main_arg4) (funext fun a => Fin.ext ?_)
  match a with
  | ⟨0, _⟩ => show win2_1.index t (0 : Fin 1) * 128 + 1 * q.val = q.val; rw [e]; omega

theorem blk_gamma (t : Fin cfg2.N) (q : Fin 128) :
    iblk2 (F := Ideal) V c 2 t (ix1 q) = (V c main_arg10 : S128.Idx → EReal) (ix1 q) := by
  obtain ⟨-, -, -, e, -⟩ := idx_facts t
  unfold iblk2
  rw [View.read_apply]
  show V c main_arg10 (((cfg2.win 2).blk t).view.emb (ix1 q)) = V c main_arg10 (ix1 q)
  refine congrArg (V c main_arg10) (funext fun a => Fin.ext ?_)
  match a with
  | ⟨0, _⟩ => show win2_2.index t (0 : Fin 1) * 128 + 1 * q.val = q.val; rw [e]; omega

theorem blk_beta (t : Fin cfg2.N) (q : Fin 128) :
    iblk2 (F := Ideal) V c 3 t (ix1 q) = (V c main_arg11 : S128.Idx → EReal) (ix1 q) := by
  obtain ⟨-, -, -, -, e, -⟩ := idx_facts t
  unfold iblk2
  rw [View.read_apply]
  show V c main_arg11 (((cfg2.win 3).blk t).view.emb (ix1 q)) = V c main_arg11 (ix1 q)
  refine congrArg (V c main_arg11) (funext fun a => Fin.ext ?_)
  match a with
  | ⟨0, _⟩ => show win2_3.index t (0 : Fin 1) * 128 + 1 * q.val = q.val; rw [e]; omega

theorem blk_mean (t : Fin cfg2.N) (q : Fin 128) :
    iblk2 (F := Ideal) V c 4 t (ix1 q) = (V c main_arg12 : S128.Idx → EReal) (ix1 q) := by
  obtain ⟨-, -, -, -, -, e, -⟩ := idx_facts t
  unfold iblk2
  rw [View.read_apply]
  show V c main_arg12 (((cfg2.win 4).blk t).view.emb (ix1 q)) = V c main_arg12 (ix1 q)
  refine congrArg (V c main_arg12) (funext fun a => Fin.ext ?_)
  match a with
  | ⟨0, _⟩ => show win2_4.index t (0 : Fin 1) * 128 + 1 * q.val = q.val; rw [e]; omega

theorem blk_var (t : Fin cfg2.N) (q : Fin 128) :
    iblk2 (F := Ideal) V c 5 t (ix1 q) = (V c main_arg13 : S128.Idx → EReal) (ix1 q) := by
  obtain ⟨-, -, -, -, -, -, e, -⟩ := idx_facts t
  unfold iblk2
  rw [View.read_apply]
  show V c main_arg13 (((cfg2.win 5).blk t).view.emb (ix1 q)) = V c main_arg13 (ix1 q)
  refine congrArg (V c main_arg13) (funext fun a => Fin.ext ?_)
  match a with
  | ⟨0, _⟩ => show win2_5.index t (0 : Fin 1) * 128 + 1 * q.val = q.val; rw [e]; omega

/-- Row `p`, column `q` of the output's block at point `t` is row `5000 t + p`, column `q` of the output array. -/
theorem emb_out (t : Fin cfg2.N) (p : Fin 5000) (q : Fin 128) :
    ((cfg2.win 6).blk t).view.emb (ix2 p q) = (ix2 (row t p) q : S100000x128.Idx) := by
  obtain ⟨-, -, -, -, -, -, -, e7, e8⟩ := idx_facts t
  funext a
  apply Fin.ext
  match a with
  | ⟨0, _⟩ => show win2_6.index t (0 : Fin 2) * 5000 + 1 * p.val = t.val * 5000 + p.val; rw [e7]; omega
  | ⟨1, _⟩ => show win2_6.index t (1 : Fin 2) * 128 + 1 * q.val = q.val; rw [e8]; omega

/-! ## What each point writes back, and the array the region leaves -/

/-- What point `t` writes back is block `t` of any whole-array function `G` that reads, at row `r` and column `q`, the
    normalisation of what the region finds in its input arrays at that row and column. -/
theorem flushed_eq (G a48 : S100000x128.Idx → EReal) (a4 a10 a11 a12 a13 : S128.Idx → EReal)
    (e48 : V c main_v48 = a48) (e4 : V c main_arg4 = a4) (e10 : V c main_arg10 = a10) (e11 : V c main_arg11 = a11)
    (e12 : V c main_arg12 = a12) (e13 : V c main_arg13 = a13)
    (hG : ∀ (r : Fin 100000) (q : Fin 128), G (ix2 r q)
      = bnRelu (a48 (ix2 r q) + a4 (ix1 q)) (a12 (ix1 q)) (a13 (ix1 q)) (a10 (ix1 q)) (a11 (ix1 q)))
    (t : Fin cfg2.N) :
    (dat2 (F := Ideal) V c).flushed 6 t = ((cfg2.win 6).blk t).view.read (Elt Ideal) G := by
  show (cfg2.win 6).cut (grid2.coords t) ((dat2 (F := Ideal) V c).after 6 t) = _
  rw [after2_6]
  unfold out2_6
  rw [View.canon_unit_zero hz]
  simp only [View.ld_unit_zero (S := S5000x128) hz, View.ld_unit_zero (S := S128) hz1]
  funext j
  obtain ⟨p, q, rfl⟩ : ∃ (p : Fin 5000) (q : Fin 128), j = ix2 p q := ⟨j 0, j 1, eq_ix2 j⟩
  refine (pay2_apply _ _ _ _ _ _ p q).trans (Eq.trans ?_ (congrArg G (emb_out t p q)).symm)
  rw [hG, blk_h, blk_bias, blk_gamma, blk_beta, blk_mean, blk_var, e48, e4, e10, e11, e12, e13]

/-- An index of the output array is in point `t`'s block iff each coordinate is in the block's range on its axis. -/
theorem mem_blk (t : Fin cfg2.N) (i : S100000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v49).slice (win2_6.rect t)).set ↔ _
  rw [View.set_slice_whole, Rect.mem_set_unit]
  exact Iff.rfl

/-- The blocks tile the output array: row `r` is in the block of point `r / 5000`. -/
theorem cover (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, Nat.lt_of_lt_of_eq (by omega : (i 0).val / 5000 < 20) N_2.symm⟩, rfl⟩
  obtain ⟨-, -, -, -, -, -, -, e7, e8⟩ := idx_facts t
  refine ⟨t, flush2_6 t, ?_⟩
  rw [mem_blk]
  intro a
  match a with
  | ⟨0, _⟩ =>
    show win2_6.index t (0 : Fin 2) * 5000 ≤ (i 0).val ∧ (i 0).val < win2_6.index t (0 : Fin 2) * 5000 + 5000
    rw [e7, ht]; omega
  | ⟨1, _⟩ =>
    show win2_6.index t (1 : Fin 2) * 128 ≤ (i 1).val ∧ (i 1).val < win2_6.index t (1 : Fin 2) * 128 + 128
    rw [e8]; omega

/-- The array the region leaves in its output window is the reference's normalised, rectified layer-1 array, when the
    region finds the reference's aggregated layer-1 array and the five parameter vectors in its input arrays. -/
theorem final (x0 : (⟨Cert.ReferenceIdeal.S100000x256, .f32⟩ : BufTy).Contents (Elt Ideal))
    (x1 : (⟨Cert.ReferenceIdeal.S2x1600000, .i32⟩ : BufTy).Contents (Elt Ideal))
    (x2 : (⟨Cert.ReferenceIdeal.S1600000, .f32⟩ : BufTy).Contents (Elt Ideal))
    (x3 : (⟨Cert.ReferenceIdeal.S256x128, .f32⟩ : BufTy).Contents (Elt Ideal))
    (x4 x10 x11 x12 x13 : (⟨Cert.ReferenceIdeal.S128, .f32⟩ : BufTy).Contents (Elt Ideal))
    (h48 : V c main_v48 = Cert.ReferenceIdeal.Read.val_main_v48 (F := Ideal) x0 x1 x2 x3)
    (h4 : V c main_arg4 = x4) (h10 : V c main_arg10 = x10) (h11 : V c main_arg11 = x11)
    (h12 : V c main_arg12 = x12) (h13 : V c main_arg13 = x13) :
    (dat2 (F := Ideal) V c).arrAt 6 cfg2.N
      = Cert.ReferenceIdeal.Read.val_main_v67 (F := Ideal) x0 x1 x2 x3 x4 x10 x11 x12 x13 :=
  (dat2 (F := Ideal) V c).arrAt_eq_of_cover 6
    (Cert.ReferenceIdeal.Read.val_main_v67 (F := Ideal) x0 x1 x2 x3 x4 x10 x11 x12 x13)
    (fun t _ => flushed_eq V c _ (Cert.ReferenceIdeal.Read.val_main_v48 (F := Ideal) x0 x1 x2 x3) x4 x10 x11 x12 x13
      h48 h4 h10 h11 h12 h13 (fun r q => ref_apply x0 x1 x2 x3 x4 x10 x11 x12 x13 r q) t) cover

end Cert.Bridge.BatchNorm2

end
-- ==== Proof.BatchNorm4.lean ====
import proofs.«151952_j29094108463582_1_alg».proof.Proof.Gen.KernelIdeal.Frame
import proofs.«151952_j29094108463582_1_alg».proof.Proof.Gen.ReferenceIdeal.Read
import proofs.«151952_j29094108463582_1_alg».proof.Proof.BatchNormCommon
import Idealize.ShloMosaic.Lib.ValueIdx
import Idealize.ShloMosaic.Lib.ValueLayout
import Idealize.ShloMosaic.Lib.Pipeline.Value
import Idealize.ShloMosaic.PureOps.Ideal.Laws

/-! # The second batch-norm + ReLU region (with the residual) against the reference's layer-2 normalisation

The region walks the [100000, 128] arrays in 20 blocks of 5000 rows; block `t` is rows `5000 t … 5000 t + 4999` of the
aggregated layer-2 array, of the residual array and of the output, and every [128] parameter window is the whole vector
at every point. At row `p` of block `t` and column `q` the body leaves
`bnRelu (h + bias q + res) (mean q) (var q) (gamma q) (beta q)` with `h` and `res` read at row `5000 t + p`; the
reference's chain of broadcasts and pointwise operations reads the same expression at that row and column. The blocks
tile the array (row `r` is in block `r / 5000`), so the array the region leaves is the reference's stage. -/

noncomputable section

namespace Cert.Bridge.BatchNorm4

open Idealize.ShloMosaic Idealize.ShloMosaic.TcCoe Idealize.SL.Sem Cert.KernelIdeal Cert.KernelIdeal.Gen
open Idealize.ShloMosaic.ValueIdx Cert.Bridge.BatchNormCommon

/-! ## The reference's stage at a row and a column -/

/-- The reference's normalised, rectified layer-2 array at `(r, q)`: the residual is added before the mean is
    subtracted, each parameter vector is read at column `q` through its two broadcasts, ε and the zero of the ReLU are
    splats. -/
theorem ref_apply (x0 : (⟨Cert.ReferenceIdeal.S100000x256, .f32⟩ : BufTy).Contents (Elt Ideal))
    (x1 : (⟨Cert.ReferenceIdeal.S2x1600000, .i32⟩ : BufTy).Contents (Elt Ideal))
    (x2 : (⟨Cert.ReferenceIdeal.S1600000, .f32⟩ : BufTy).Contents (Elt Ideal))
    (x3 : (⟨Cert.ReferenceIdeal.S256x128, .f32⟩ : BufTy).Contents (Elt Ideal))
    (x4 : (⟨Cert.ReferenceIdeal.S128, .f32⟩ : BufTy).Contents (Elt Ideal))
    (x5 : (⟨Cert.ReferenceIdeal.S128x128, .f32⟩ : BufTy).Contents (Elt Ideal))
    (x6 : (⟨Cert.ReferenceIdeal.S128, .f32⟩ : BufTy).Contents (Elt Ideal))
    (x9 : (⟨Cert.ReferenceIdeal.S256x128, .f32⟩ : BufTy).Contents (Elt Ideal))
    (x10 x11 x12 x13 x14 x15 x16 x17 : (⟨Cert.ReferenceIdeal.S128, .f32⟩ : BufTy).Contents (Elt Ideal)) (r : Fin 100000) (q : Fin 128) :
    Cert.ReferenceIdeal.Read.val_main_v101 (F := Ideal) x0 x1 x2 x3 x4 x5 x6 x9 x10 x11 x12 x13 x14 x15 x16 x17 (ix2 r q)
      = bnRelu (Cert.ReferenceIdeal.Read.val_main_v81 (F := Ideal) x0 x1 x2 x3 x4 x5 x10 x11 x12 x13 (ix2 r q) + x6 (ix1 q)
            + Cert.ReferenceIdeal.Read.val_main_v34 (F := Ideal) x0 x9 (ix2 r q))
          (x16 (ix1 q)) (x17 (ix1 q)) (x14 (ix1 q)) (x15 (ix1 q)) := by
  have i6 : Cert.ReferenceIdeal.Read.idx_main_v82 (Cert.ReferenceIdeal.Read.idx_main_v83 (ix2 r q)) = ix1 q :=
    funext fun a => by match a with | ⟨0, _⟩ => rfl
  have i16 : Cert.ReferenceIdeal.Read.idx_main_v86 (Cert.ReferenceIdeal.Read.idx_main_v87 (ix2 r q)) = ix1 q :=
    funext fun a => by match a with | ⟨0, _⟩ => rfl
  have i17 : Cert.ReferenceIdeal.Read.idx_main_v92 (Cert.ReferenceIdeal.Read.idx_main_v93 (ix2 r q)) = ix1 q :=
    funext fun a => by match a with | ⟨0, _⟩ => rfl
  have i14 : Cert.ReferenceIdeal.Read.idx_main_v95 (Cert.ReferenceIdeal.Read.idx_main_v96 (ix2 r q)) = ix1 q :=
    funext fun a => by match a with | ⟨0, _⟩ => rfl
  have i15 : Cert.ReferenceIdeal.Read.idx_main_v98 (Cert.ReferenceIdeal.Read.idx_main_v99 (ix2 r q)) = ix1 q :=
    funext fun a => by match a with | ⟨0, _⟩ => rfl
  rw [Cert.ReferenceIdeal.Read.val_main_v101_apply, Cert.ReferenceIdeal.Read.val_main_call2_v0_apply, Cert.ReferenceIdeal.Read.val_main_call2_cst_apply,
    Cert.ReferenceIdeal.Read.val_main_v100_apply, Cert.ReferenceIdeal.Read.val_main_v99_apply, Cert.ReferenceIdeal.Read.val_main_v98_apply,
    Cert.ReferenceIdeal.Read.val_main_v97_apply, Cert.ReferenceIdeal.Read.val_main_v96_apply, Cert.ReferenceIdeal.Read.val_main_v95_apply,
    Cert.ReferenceIdeal.Read.val_main_v94_apply, Cert.ReferenceIdeal.Read.val_main_v93_apply, Cert.ReferenceIdeal.Read.val_main_v92_apply,
    Cert.ReferenceIdeal.Read.val_main_v91_apply, Cert.ReferenceIdeal.Read.val_main_v90_apply, Cert.ReferenceIdeal.Read.val_main_v89_apply,
    Cert.ReferenceIdeal.Read.val_main_cst_14_apply, Cert.ReferenceIdeal.Read.val_main_v88_apply, Cert.ReferenceIdeal.Read.val_main_v87_apply,
    Cert.ReferenceIdeal.Read.val_main_v86_apply, Cert.ReferenceIdeal.Read.val_main_v85_apply, Cert.ReferenceIdeal.Read.val_main_v84_apply,
    Cert.ReferenceIdeal.Read.val_main_v83_apply, Cert.ReferenceIdeal.Read.val_main_v82_apply, i6, i16, i17, i14, i15]
  rfl

/-! ## The region's blocks as rows of its arrays -/

/-- The grid has 20 points. -/
theorem point_lt (t : Fin cfg4.N) : t.val < 20 := Nat.lt_of_lt_of_eq t.isLt N_4

/-- Row `p` of block `t` is row `5000 t + p` of the array. -/
def row (t : Fin cfg4.N) (p : Fin 5000) : Fin 100000 :=
  ⟨t.val * 5000 + p.val, by have := point_lt t; have := p.isLt; omega⟩

theorem hz : (![0, 0] : Fin 2 → Nat) = fun _ => 0 := funext fun a => by fin_cases a <;> rfl
theorem hz1 : (![0] : Fin 1 → Nat) = fun _ => 0 := funext fun a => by fin_cases a; rfl

/-- The printed index maps, decided over the grid: the three row-blocked windows sit at block `t` of the rows and block 0
    of the columns, the parameter windows at block 0. -/
theorem idx_facts : ∀ t : Fin cfg4.N, win4_0.index t (0 : Fin 2) = t.val ∧ win4_0.index t (1 : Fin 2) = 0
    ∧ win4_1.index t (0 : Fin 1) = 0
    ∧ win4_2.index t (0 : Fin 2) = t.val ∧ win4_2.index t (1 : Fin 2) = 0
    ∧ win4_3.index t (0 : Fin 1) = 0 ∧ win4_4.index t (0 : Fin 1) = 0
    ∧ win4_5.index t (0 : Fin 1) = 0 ∧ win4_6.index t (0 : Fin 1) = 0
    ∧ win4_7.index t (0 : Fin 2) = t.val ∧ win4_7.index t (1 : Fin 2) = 0 :=
  (by decide +kernel : ∀ t : Fin grid4.N, _)

variable (V : (c : Dev nD) → (b : Ref sig .tc) → Buf (Elt Ideal) ((c : Thread nD τ).loc b)) (c : Dev nD)

/-- The input block at point `t` is rows `5000 t …` of the aggregated array as the region finds it. -/
theorem blk_h (t : Fin cfg4.N) (p : Fin 5000) (q : Fin 128) :
    iblk4 (F := Ideal) V c 0 t (ix2 p q) = (V c main_v63 : S100000x128.Idx → EReal) (ix2 (row t p) q) := by
  obtain ⟨e0, e1, -⟩ := idx_facts t
  unfold iblk4
  rw [View.read_apply]
  show V c main_v63 (((cfg4.win 0).blk t).view.emb (ix2 p q)) = V c main_v63 (ix2 (row t p) q)
  refine congrArg (V c main_v63) (funext fun a => Fin.ext ?_)
  match a with
  | ⟨0, _⟩ => show win4_0.index t (0 : Fin 2) * 5000 + 1 * p.val = t.val * 5000 + p.val; rw [e0]; omega
  | ⟨1, _⟩ => show win4_0.index t (1 : Fin 2) * 128 + 1 * q.val = q.val; rw [e1]; omega

/-- The residual block at point `t` is rows `5000 t …` of the residual array as the region finds it. -/
theorem blk_res (t : Fin cfg4.N) (p : Fin 5000) (q : Fin 128) :
    iblk4 (F := Ideal) V c 2 t (ix2 p q) = (V c main_v34 : S100000x128.Idx → EReal) (ix2 (row t p) q) := by
  obtain ⟨-, -, -, e0, e1, -⟩ := idx_facts t
  unfold iblk4
  rw [View.read_apply]
  show V c main_v34 (((cfg4.win 2).blk t).view.emb (ix2 p q)) = V c main_v34 (ix2 (row t p) q)
  refine congrArg (V c main_v34) (funext fun a => Fin.ext ?_)
  match a with
  | ⟨0, _⟩ => show win4_2.index t (0 : Fin 2) * 5000 + 1 * p.val = t.val * 5000 + p.val; rw [e0]; omega
  | ⟨1, _⟩ => show win4_2.index t (1 : Fin 2) * 128 + 1 * q.val = q.val; rw [e1]; omega

/-- Each parameter window's block is its whole vector at every point. -/
theorem blk_bias (t : Fin cfg4.N) (q : Fin 128) :
    iblk4 (F := Ideal) V c 1 t (ix1 q) = (V c main_arg6 : S128.Idx → EReal) (ix1 q) := by
  obtain ⟨-, -, e, -⟩ := idx_facts t
  unfold iblk4
  rw [View.read_apply]
  show V c main_arg6 (((cfg4.win 1).blk t).view.emb (ix1 q)) = V c main_arg6 (ix1 q)
  refine congrArg (V c main_arg6) (funext fun a => Fin.ext ?_)
  match a with
  | ⟨0, _⟩ => show win4_1.index t (0 : Fin 1) * 128 + 1 * q.val = q.val; rw [e]; omega

theorem blk_gamma (t : Fin cfg4.N) (q : Fin 128) :
    iblk4 (F := Ideal) V c 3 t (ix1 q) = (V c main_arg14 : S128.Idx → EReal) (ix1 q) := by
  obtain ⟨-, -, -, -, -, e, -⟩ := idx_facts t
  unfold iblk4
  rw [View.read_apply]
  show V c main_arg14 (((cfg4.win 3).blk t).view.emb (ix1 q)) = V c main_arg14 (ix1 q)
  refine congrArg (V c main_arg14) (funext fun a => Fin.ext ?_)
  match a with
  | ⟨0, _⟩ => show win4_3.index t (0 : Fin 1) * 128 + 1 * q.val = q.val; rw [e]; omega

theorem blk_beta (t : Fin cfg4.N) (q : Fin 128) :
    iblk4 (F := Ideal) V c 4 t (ix1 q) = (V c main_arg15 : S128.Idx → EReal) (ix1 q) := by
  obtain ⟨-, -, -, -, -, -, e, -⟩ := idx_facts t
  unfold iblk4
  rw [View.read_apply]
  show V c main_arg15 (((cfg4.win 4).blk t).view.emb (ix1 q)) = V c main_arg15 (ix1 q)
  refine congrArg (V c main_arg15) (funext fun a => Fin.ext ?_)
  match a with
  | ⟨0, _⟩ => show win4_4.index t (0 : Fin 1) * 128 + 1 * q.val = q.val; rw [e]; omega

theorem blk_mean (t : Fin cfg4.N) (q : Fin 128) :
    iblk4 (F := Ideal) V c 5 t (ix1 q) = (V c main_arg16 : S128.Idx → EReal) (ix1 q) := by
  obtain ⟨-, -, -, -, -, -, -, e, -⟩ := idx_facts t
  unfold iblk4
  rw [View.read_apply]
  show V c main_arg16 (((cfg4.win 5).blk t).view.emb (ix1 q)) = V c main_arg16 (ix1 q)
  refine congrArg (V c main_arg16) (funext fun a => Fin.ext ?_)
  match a with
  | ⟨0, _⟩ => show win4_5.index t (0 : Fin 1) * 128 + 1 * q.val = q.val; rw [e]; omega

theorem blk_var (t : Fin cfg4.N) (q : Fin 128) :
    iblk4 (F := Ideal) V c 6 t (ix1 q) = (V c main_arg17 : S128.Idx → EReal) (ix1 q) := by
  obtain ⟨-, -, -, -, -, -, -, -, e, -⟩ := idx_facts t
  unfold iblk4
  rw [View.read_apply]
  show V c main_arg17 (((cfg4.win 6).blk t).view.emb (ix1 q)) = V c main_arg17 (ix1 q)
  refine congrArg (V c main_arg17) (funext fun a => Fin.ext ?_)
  match a with
  | ⟨0, _⟩ => show win4_6.index t (0 : Fin 1) * 128 + 1 * q.val = q.val; rw [e]; omega

/-- Row `p`, column `q` of the output's block at point `t` is row `5000 t + p`, column `q` of the output array. -/
theorem emb_out (t : Fin cfg4.N) (p : Fin 5000) (q : Fin 128) :
    ((cfg4.win 7).blk t).view.emb (ix2 p q) = (ix2 (row t p) q : S100000x128.Idx) := by
  obtain ⟨-, -, -, -, -, -, -, -, -, e0, e1⟩ := idx_facts t
  funext a
  apply Fin.ext
  match a with
  | ⟨0, _⟩ => show win4_7.index t (0 : Fin 2) * 5000 + 1 * p.val = t.val * 5000 + p.val; rw [e0]; omega
  | ⟨1, _⟩ => show win4_7.index t (1 : Fin 2) * 128 + 1 * q.val = q.val; rw [e1]; omega

/-! ## What each point writes back, and the array the region leaves -/

/-- What point `t` writes back is block `t` of any whole-array function `G` that reads, at row `r` and column `q`, the
    normalisation of what the region finds in its input arrays at that row and column. -/
theorem flushed_eq (G a63 a34 : S100000x128.Idx → EReal) (a6 a14 a15 a16 a17 : S128.Idx → EReal)
    (e63 : V c main_v63 = a63) (e6 : V c main_arg6 = a6) (e34 : V c main_v34 = a34)
    (e14 : V c main_arg14 = a14) (e15 : V c main_arg15 = a15) (e16 : V c main_arg16 = a16) (e17 : V c main_arg17 = a17)
    (hG : ∀ (r : Fin 100000) (q : Fin 128), G (ix2 r q)
      = bnRelu (a63 (ix2 r q) + a6 (ix1 q) + a34 (ix2 r q)) (a16 (ix1 q)) (a17 (ix1 q)) (a14 (ix1 q)) (a15 (ix1 q)))
    (t : Fin cfg4.N) :
    (dat4 (F := Ideal) V c).flushed 7 t = ((cfg4.win 7).blk t).view.read (Elt Ideal) G := by
  show (cfg4.win 7).cut (grid4.coords t) ((dat4 (F := Ideal) V c).after 7 t) = _
  rw [after4_7]
  unfold out4_7
  rw [View.canon_unit_zero hz]
  simp only [View.ld_unit_zero (S := S5000x128) hz, View.ld_unit_zero (S := S128) hz1]
  funext j
  obtain ⟨p, q, rfl⟩ : ∃ (p : Fin 5000) (q : Fin 128), j = ix2 p q := ⟨j 0, j 1, eq_ix2 j⟩
  refine (pay4_apply _ _ _ _ _ _ _ p q).trans (Eq.trans ?_ (congrArg G (emb_out t p q)).symm)
  rw [hG, blk_h, blk_res, blk_bias, blk_gamma, blk_beta, blk_mean, blk_var, e63, e6, e34, e14, e15, e16, e17]

/-- An index of the output array is in point `t`'s block iff each coordinate is in the block's range on its axis. -/
theorem mem_blk (t : Fin cfg4.N) (i : S100000x128.Idx) :
    i ∈ ((cfg4.win 7).blk t).view.set ↔ ∀ a : Fin 2, win4_7.index t a * S5000x128.size a ≤ (i a).val
      ∧ (i a).val < win4_7.index t a * S5000x128.size a + S5000x128.size a := by
  show i ∈ ((View.whole main_v64).slice (win4_7.rect t)).set ↔ _
  rw [View.set_slice_whole, Rect.mem_set_unit]
  exact Iff.rfl

/-- The blocks tile the output array: row `r` is in the block of point `r / 5000`. -/
theorem cover (i : S100000x128.Idx) :
    ∃ t : Fin cfg4.N, (cfg4.win 7).flush t = true ∧ i ∈ ((cfg4.win 7).blk t).view.set := by
  have hi0 : (i 0).val < 100000 := (i 0).isLt
  have hi1 : (i 1).val < 128 := (i 1).isLt
  obtain ⟨t, ht⟩ : ∃ t : Fin cfg4.N, t.val = (i 0).val / 5000 :=
    ⟨⟨(i 0).val / 5000, Nat.lt_of_lt_of_eq (by omega : (i 0).val / 5000 < 20) N_4.symm⟩, rfl⟩
  obtain ⟨-, -, -, -, -, -, -, -, -, e0, e1⟩ := idx_facts t
  refine ⟨t, flush4_7 t, ?_⟩
  rw [mem_blk]
  intro a
  match a with
  | ⟨0, _⟩ =>
    show win4_7.index t (0 : Fin 2) * 5000 ≤ (i 0).val ∧ (i 0).val < win4_7.index t (0 : Fin 2) * 5000 + 5000
    rw [e0, ht]; omega
  | ⟨1, _⟩ =>
    show win4_7.index t (1 : Fin 2) * 128 ≤ (i 1).val ∧ (i 1).val < win4_7.index t (1 : Fin 2) * 128 + 128
    rw [e1]; omega

/-- The array the region leaves in its output window is the reference's normalised, rectified layer-2 array, when the
    region finds the reference's aggregated layer-2 array, its residual array and the five parameter vectors in its
    input arrays. -/
theorem final (x0 : (⟨Cert.ReferenceIdeal.S100000x256, .f32⟩ : BufTy).Contents (Elt Ideal))
    (x1 : (⟨Cert.ReferenceIdeal.S2x1600000, .i32⟩ : BufTy).Contents (Elt Ideal))
    (x2 : (⟨Cert.ReferenceIdeal.S1600000, .f32⟩ : BufTy).Contents (Elt Ideal))
    (x3 : (⟨Cert.ReferenceIdeal.S256x128, .f32⟩ : BufTy).Contents (Elt Ideal))
    (x4 : (⟨Cert.ReferenceIdeal.S128, .f32⟩ : BufTy).Contents (Elt Ideal))
    (x5 : (⟨Cert.ReferenceIdeal.S128x128, .f32⟩ : BufTy).Contents (Elt Ideal))
    (x6 : (⟨Cert.ReferenceIdeal.S128, .f32⟩ : BufTy).Contents (Elt Ideal))
    (x9 : (⟨Cert.ReferenceIdeal.S256x128, .f32⟩ : BufTy).Contents (Elt Ideal))
    (x10 x11 x12 x13 x14 x15 x16 x17 : (⟨Cert.ReferenceIdeal.S128, .f32⟩ : BufTy).Contents (Elt Ideal))
    (h63 : V c main_v63 = Cert.ReferenceIdeal.Read.val_main_v81 (F := Ideal) x0 x1 x2 x3 x4 x5 x10 x11 x12 x13)
    (h6 : V c main_arg6 = x6) (h34 : V c main_v34 = Cert.ReferenceIdeal.Read.val_main_v34 (F := Ideal) x0 x9)
    (h14 : V c main_arg14 = x14) (h15 : V c main_arg15 = x15) (h16 : V c main_arg16 = x16) (h17 : V c main_arg17 = x17) :
    (dat4 (F := Ideal) V c).arrAt 7 cfg4.N
      = Cert.ReferenceIdeal.Read.val_main_v101 (F := Ideal) x0 x1 x2 x3 x4 x5 x6 x9 x10 x11 x12 x13 x14 x15 x16 x17 :=
  (dat4 (F := Ideal) V c).arrAt_eq_of_cover 7
    (Cert.ReferenceIdeal.Read.val_main_v101 (F := Ideal) x0 x1 x2 x3 x4 x5 x6 x9 x10 x11 x12 x13 x14 x15 x16 x17)
    (fun t _ => flushed_eq V c _ (Cert.ReferenceIdeal.Read.val_main_v81 (F := Ideal) x0 x1 x2 x3 x4 x5 x10 x11 x12 x13) (Cert.ReferenceIdeal.Read.val_main_v34 (F := Ideal) x0 x9)
      x6 x14 x15 x16 x17 h63 h6 h34 h14 h15 h16 h17 (fun r q => ref_apply x0 x1 x2 x3 x4 x5 x6 x9 x10 x11 x12 x13 x14 x15 x16 x17 r q) t) cover

end Cert.Bridge.BatchNorm4

end
-- ==== Proof.Stages.lean ====
/-
  The kernel program's result as a function of its arguments.

  The program computes a three-layer graph convolution. Its host operations build, from the edge list and the edge
  weights, the source and target index vectors with the self loops appended and the symmetrically normalised edge
  weights; four kernel regions compute dense matrix products (the residual branch and one per layer), two compute
  a batch normalisation followed by a rectifier, and host operations between them gather the products' rows along the
  source indices, scale them by the edge normalisation and add them up along the target indices. The reference program
  is the same dataflow written in host operations only. Boundary by boundary, the array the kernel program holds is
  the reference's stage of the same name: the host stretches are the reference's own operations applied to arrays
  already identified, and each region's output is the reference's matrix product or pointwise chain of the arrays the
  region reads. The last boundary gives the result.
-/
import proofs.«151952_j29094108463582_1_alg».proof.Proof.Gen.KernelIdeal.Frame
import proofs.«151952_j29094108463582_1_alg».proof.Proof.Gen.ReferenceIdeal.Read
import proofs.«151952_j29094108463582_1_alg».proof.Proof.Carry
import proofs.«151952_j29094108463582_1_alg».proof.Proof.HostNorm
import proofs.«151952_j29094108463582_1_alg».proof.Proof.MatMul0
import proofs.«151952_j29094108463582_1_alg».proof.Proof.MatMul1
import proofs.«151952_j29094108463582_1_alg».proof.Proof.MatMul3
import proofs.«151952_j29094108463582_1_alg».proof.Proof.MatMul5
import proofs.«151952_j29094108463582_1_alg».proof.Proof.BatchNorm2
import proofs.«151952_j29094108463582_1_alg».proof.Proof.BatchNorm4

noncomputable section

set_option maxHeartbeats 1000000

namespace Cert.Bridge.Stages

open Idealize.ShloMosaic Idealize.ShloMosaic.TcCoe Idealize.SL.Sem Idealize.ShloMosaic.StableHlo Cert.KernelIdeal Cert.KernelIdeal.Gen Cert.Bridge.Carry Cert.Bridge.HostNorm

variable (m : (ℓ : Loc nD τ sig) → Buf (Elt Ideal) ℓ) (ρ : Dev nD → PrngReg) (c : Dev nD)

set_option quotPrecheck false
local notation "X0" => m ((c : Thread nD τ).loc main_arg0)
local notation "X1" => m ((c : Thread nD τ).loc main_arg1)
local notation "X2" => m ((c : Thread nD τ).loc main_arg2)
local notation "X3" => m ((c : Thread nD τ).loc main_arg3)
local notation "X4" => m ((c : Thread nD τ).loc main_arg4)
local notation "X5" => m ((c : Thread nD τ).loc main_arg5)
local notation "X6" => m ((c : Thread nD τ).loc main_arg6)
local notation "X7" => m ((c : Thread nD τ).loc main_arg7)
local notation "X8" => m ((c : Thread nD τ).loc main_arg8)
local notation "X9" => m ((c : Thread nD τ).loc main_arg9)
local notation "X10" => m ((c : Thread nD τ).loc main_arg10)
local notation "X11" => m ((c : Thread nD τ).loc main_arg11)
local notation "X12" => m ((c : Thread nD τ).loc main_arg12)
local notation "X13" => m ((c : Thread nD τ).loc main_arg13)
local notation "X14" => m ((c : Thread nD τ).loc main_arg14)
local notation "X15" => m ((c : Thread nD τ).loc main_arg15)
local notation "X16" => m ((c : Thread nD τ).loc main_arg16)
local notation "X17" => m ((c : Thread nD τ).loc main_arg17)

/-! ## The residual product and the first layer -/

/-- The residual branch: the node features times the residual weights. -/
theorem W4_v34 : W4 m ρ c (Proc.devRef .tc main_v34) = Cert.ReferenceIdeal.Read.val_main_v34 (F := Ideal) X0 X9 :=
  (W4_arr m ρ c 2).trans (Cert.Bridge.MatMul0.final (V3 m ρ) c X0 X9 (W3_main_arg0 m ρ c) (W3_main_arg9 m ρ c))

/-- The first layer's product: the node features times the first weights. -/
theorem W5_v35 : W5 m ρ c (Proc.devRef .tc main_v35) = Cert.ReferenceIdeal.Read.val_main_v35 (F := Ideal) X0 X3 :=
  (W5_arr m ρ c 2).trans (Cert.Bridge.MatMul1.final (V4 m ρ) c X0 X3 (W4_main_arg0 m ρ c) (W4_main_arg3 m ρ c))

/-- The first aggregation: rows of the product gathered along the source indices, scaled by the edge normalisation
    and summed along the target indices. -/
theorem W6_v48 : W6 m ρ c (Proc.devRef .tc main_v48) = Cert.ReferenceIdeal.Read.val_main_v48 (F := Ideal) X0 X1 X2 X3 := by
  show StableHlo.after hostOps2 (W5 m ρ c) (Proc.devRef .tc main_v48) = _
  simp only [hostOps2]
  after_results_simp
  rw [W5_v35 m ρ c, W5_main_v3 m ρ c, W5_main_v6 m ρ c, W5_main_v33 m ρ c, W3_v3 m ρ c, W3_v6 m ρ c, W3_v33 m ρ c]
  rfl

/-- The first layer's output: bias, batch normalisation and rectifier of the aggregate. -/
theorem W7_v49 : W7 m ρ c (Proc.devRef .tc main_v49) = Cert.ReferenceIdeal.Read.val_main_v67 (F := Ideal) X0 X1 X2 X3 X4 X10 X11 X12 X13 :=
  (W7_arr m ρ c 6).trans (Cert.Bridge.BatchNorm2.final (V6 m ρ) c X0 X1 X2 X3 X4 X10 X11 X12 X13 (W6_v48 m ρ c)
    (W6_main_arg4 m ρ c) (W6_main_arg10 m ρ c) (W6_main_arg11 m ρ c) (W6_main_arg12 m ρ c) (W6_main_arg13 m ρ c))

/-! ## The second layer -/

theorem W8_v50 : W8 m ρ c (Proc.devRef .tc main_v50) = Cert.ReferenceIdeal.Read.val_main_v68 (F := Ideal) X0 X1 X2 X3 X4 X5 X10 X11 X12 X13 :=
  (W8_arr m ρ c 2).trans (Cert.Bridge.MatMul3.final (V7 m ρ) c _ X5 (W7_v49 m ρ c) (W7_main_arg5 m ρ c))

theorem W9_v63 : W9 m ρ c (Proc.devRef .tc main_v63) = Cert.ReferenceIdeal.Read.val_main_v81 (F := Ideal) X0 X1 X2 X3 X4 X5 X10 X11 X12 X13 := by
  show StableHlo.after hostOps4 (W8 m ρ c) (Proc.devRef .tc main_v63) = _
  simp only [hostOps4]
  after_results_simp
  rw [W8_v50 m ρ c, W8_main_v3 m ρ c, W8_main_v6 m ρ c, W8_main_v33 m ρ c, W3_v3 m ρ c, W3_v6 m ρ c, W3_v33 m ρ c]
  rfl

theorem W9_v34 : W9 m ρ c (Proc.devRef .tc main_v34) = Cert.ReferenceIdeal.Read.val_main_v34 (F := Ideal) X0 X9 :=
  (W9_main_v34 m ρ c).trans (W4_v34 m ρ c)

/-- The second layer's output: bias and residual added, batch normalisation, rectifier. -/
theorem W10_v64 : W10 m ρ c (Proc.devRef .tc main_v64) = Cert.ReferenceIdeal.Read.val_main_v101 (F := Ideal) X0 X1 X2 X3 X4 X5 X6 X9 X10 X11 X12 X13 X14 X15 X16 X17 :=
  (W10_arr m ρ c 7).trans (Cert.Bridge.BatchNorm4.final (V9 m ρ) c X0 X1 X2 X3 X4 X5 X6 X9 X10 X11 X12 X13 X14 X15 X16 X17 (W9_v63 m ρ c)
    (W9_main_arg6 m ρ c) (W9_v34 m ρ c) (W9_main_arg14 m ρ c) (W9_main_arg15 m ρ c) (W9_main_arg16 m ρ c) (W9_main_arg17 m ρ c))

/-! ## The third layer and the result -/

theorem W11_v65 : W11 m ρ c (Proc.devRef .tc main_v65) = Cert.ReferenceIdeal.Read.val_main_v102 (F := Ideal) X0 X1 X2 X3 X4 X5 X6 X7 X9 X10 X11 X12 X13 X14 X15 X16 X17 :=
  (W11_arr m ρ c 2).trans (Cert.Bridge.MatMul5.final (V10 m ρ) c _ X7 (W10_v64 m ρ c) (W10_main_arg7 m ρ c))

/-- THE RESULT: the third aggregate plus the last bias, as a vector over the nodes, is the reference's result stage. -/
theorem W12_v81 : W12 m ρ c (Proc.devRef .tc main_v81) = Cert.ReferenceIdeal.Read.val_main_v118 (F := Ideal) X0 X1 X2 X3 X4 X5 X6 X7 X8 X9 X10 X11 X12 X13 X14 X15 X16 X17 := by
  show StableHlo.after hostOps6 (W11 m ρ c) (Proc.devRef .tc main_v81) = _
  simp only [hostOps6]
  after_results_simp
  rw [W11_v65 m ρ c, W11_main_v3 m ρ c, W11_main_v6 m ρ c, W11_main_v33 m ρ c, W11_main_arg8 m ρ c, W3_v3 m ρ c, W3_v6 m ρ c, W3_v33 m ρ c]
  rfl

end Cert.Bridge.Stages

end
-- ==== Proof.lean ====
/-
  A three-layer graph convolution: the kernel program against its reference.

  Both programs take node features, an edge list with edge weights, three weight matrices with biases, a residual
  weight matrix and two sets of batch-normalisation parameters. Both append a self loop of weight one to every node,
  normalise every edge weight by the inverse square roots of its endpoints' weighted degrees, and then, three times,
  multiply the node array by a weight matrix, gather the product's rows along the edges' sources, scale them by the
  edge normalisation, and add them up along the edges' targets; the first two layers add a bias (the second also the
  residual product), normalise each column with the given mean and variance, scale, shift and clamp below at zero,
  and the third adds its bias and is returned as a vector over the nodes.

  The kernel program computes the four matrix products and the two normalisation chains in row-blocked kernel
  regions (5000 rows at a time, operands rounded to a narrower float format on the way into a product); the reference
  computes everything with whole-array host operations. Over the extended reals a change of float format is the
  identity and both kinds of matrix product are the plain sum over the contracted axis, so each region's output array
  is the reference's array of the same stage, and every host operation between regions is literally the reference's.
  No algebraic law is needed and the inputs' finiteness is never used.

  The three frame claims are the generated frames (the reference's from its generated run); the idealization rewrote
  nothing, so `preserves` is `True`; `algebraic` puts the kernel program's run, read back at its result buffer,
  beside the reference's run, both at the reference's result stage of the (agreeing) arguments.
-/
import proofs.«151952_j29094108463582_1_alg».proof.Defs
import proofs.«151952_j29094108463582_1_alg».proof.Proof.Gen.Kernel
import proofs.«151952_j29094108463582_1_alg».proof.Proof.Gen.Kernel.Skeleton
import proofs.«151952_j29094108463582_1_alg».proof.Proof.Gen.Kernel.Launch
import proofs.«151952_j29094108463582_1_alg».proof.Proof.Gen.Kernel.Points
import proofs.«151952_j29094108463582_1_alg».proof.Proof.Gen.Kernel.Frame
import proofs.«151952_j29094108463582_1_alg».proof.Proof.Gen.KernelIdeal
import proofs.«151952_j29094108463582_1_alg».proof.Proof.Gen.KernelIdeal.Skeleton
import proofs.«151952_j29094108463582_1_alg».proof.Proof.Gen.KernelIdeal.Launch
import proofs.«151952_j29094108463582_1_alg».proof.Proof.Gen.KernelIdeal.Points
import proofs.«151952_j29094108463582_1_alg».proof.Proof.Gen.KernelIdeal.Frame
import proofs.«151952_j29094108463582_1_alg».proof.Proof.Gen.ReferenceIdeal
import proofs.«151952_j29094108463582_1_alg».proof.Proof.Gen.Pre_finite_inputs
import proofs.«151952_j29094108463582_1_alg».proof.Proof.Gen.ReferenceIdeal.Run
import proofs.«151952_j29094108463582_1_alg».proof.Proof.Gen.ReferenceIdeal.Read
import proofs.«151952_j29094108463582_1_alg».proof.Proof.KRun
import proofs.«151952_j29094108463582_1_alg».proof.Proof.Stages
import Idealize.ShloMosaic.Adequacy
import Idealize.ShloMosaic.Init

noncomputable section

namespace Cert.Proof

open Idealize.ShloMosaic Idealize.SL.Sem

/-- The word-level kernel program terminates without a fault and leaves its arguments as launched. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both programs end with the reference's result stage of those
    arguments in their result buffers, the arguments unchanged. -/
theorem algebraic : Cert.algebraic_KernelIdeal_ReferenceIdeal := by
  intro m ρ m' ρ' _ hagree
  refine ⟨fun c => Cert.ReferenceIdeal.Read.val_main_v118 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17)), ?_, ?_⟩
  · exact (θ_run Cert.KernelIdeal.defs _ _).mono
      (fun r h c => ⟨(h c).1.trans (Cert.Bridge.Stages.W12_v81 m ρ c), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17⟩ := hagree c
    rw [Cert.ReferenceIdeal.Read.val_main_v118_eq, h0, h1, h2, h3, h4, h5, h6, h7, h8, h9, h10, h11, h12, h13, h14, h15, h16, h17]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
